-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) (main_arg1 : FVec F S32x3x512x512 .f32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  let main_v4 : FVec F S32x3x512x512 .f32 := Host.absf main_arg1
  let main_cst_0 : FVec F S_ .f32 := constant S_ .f32 0x7F800000#32
  let main_v5 : FVec F S32x3x512x512 .f32 := broadcastInDim S32x3x512x512 ![] bcast_S_S32x3x512x512 main_cst_0
  let main_v6 : IVec S32x3x512x512 1 := cmpf .olt main_v4 main_v5
  let main_c_1 : IVec S_ 1 := constantI S_ 1 1#1
  let main_v7 : IVec S_ 1 := (fun x v => Host.reduce IntOp.andi x v reducesTo_S32x3x512x512_S_d0_1_2_3 h_S_) main_v6 main_c_1
  let main_v8 : IVec S_ 1 := andi main_v3 main_v7
  main_v8
-- ==== Kernel.lean ====
abbrev S32x3x512x512 : Shape := ⟨4, ![32, 3, 512, 512]⟩
abbrev S96x262144 : Shape := ⟨2, ![96, 262144]⟩
abbrev S192x262144 : Shape := ⟨2, ![192, 262144]⟩
abbrev S192x256 : Shape := ⟨2, ![192, 256]⟩
abbrev S16x4096 : Shape := ⟨2, ![16, 4096]⟩
abbrev S16x256 : Shape := ⟨2, ![16, 256]⟩
abbrev S256x256 : Shape := ⟨2, ![256, 256]⟩
abbrev S1x16x1 : Shape := ⟨3, ![1, 16, 1]⟩
abbrev S16x1x4096 : Shape := ⟨3, ![16, 1, 4096]⟩
abbrev S16x16x4096 : Shape := ⟨3, ![16, 16, 4096]⟩
abbrev S256x4096 : Shape := ⟨2, ![256, 4096]⟩
abbrev S16x16 : Shape := ⟨2, ![16, 16]⟩
abbrev S1x256 : Shape := ⟨2, ![1, 256]⟩
abbrev S96x256 : Shape := ⟨2, ![96, 256]⟩
abbrev S32x3x256 : Shape := ⟨3, ![32, 3, 256]⟩
abbrev S_ : Shape := ⟨0, ![]⟩
abbrev S3x256 : Shape := ⟨2, ![3, 256]⟩

abbrev nBuf : Space → Nat
  | .hbm => 26
  | .vmem => 5
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S96x262144, .f32⟩
  | .hbm, ⟨3, _⟩ => ⟨S96x262144, .f32⟩
  | .hbm, ⟨4, _⟩ => ⟨S192x262144, .f32⟩
  | .hbm, ⟨5, _⟩ => ⟨S192x256, .f32⟩
  | .hbm, ⟨6, _⟩ => ⟨S96x256, .f32⟩
  | .hbm, ⟨7, _⟩ => ⟨S32x3x256, .f32⟩
  | .hbm, ⟨8, _⟩ => ⟨S96x256, .f32⟩
  | .hbm, ⟨9, _⟩ => ⟨S32x3x256, .f32⟩
  | .hbm, ⟨10, _⟩ => ⟨S_, .f32⟩
  | .hbm, ⟨11, _⟩ => ⟨S3x256, .f32⟩
  | .hbm, ⟨12, _⟩ => ⟨S_, .f32⟩
  | .hbm, ⟨13, _⟩ => ⟨S3x256, .f32⟩
  | .hbm, ⟨14, _⟩ => ⟨S3x256, .f32⟩
  | .hbm, ⟨15, _⟩ => ⟨S_, .f32⟩
  | .hbm, ⟨16, _⟩ => ⟨S3x256, .f32⟩
  | .hbm, ⟨17, _⟩ => ⟨S_, .f32⟩
  | .hbm, ⟨18, _⟩ => ⟨S3x256, .f32⟩
  | .hbm, ⟨19, _⟩ => ⟨S3x256, .f32⟩
  | .hbm, ⟨20, _⟩ => ⟨S3x256, .f32⟩
  | .hbm, ⟨21, _⟩ => ⟨S3x256, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S16x4096, .f32⟩
  | .local _ .vmem, ⟨1, _⟩ => ⟨S16x4096, .f32⟩
  | .local _ .vmem, ⟨2, _⟩ => ⟨S16x256, .f32⟩
  | .local _ .vmem, ⟨3, _⟩ => ⟨S16x256, .f32⟩
  | .local _ .vmem, ⟨4, _⟩ => ⟨S256x256, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![12, 64], ![false, false]⟩

def k0_cond2 (i : grid0.Coords) : BitVec 1 :=
  let arg1 : BitVec 32 := BitVec.ofNat 32 (i 1).val
  let c63_i32 : BitVec 32 := 63#32
  let v39 : BitVec 1 := Scalar.cmpi .eq arg1 c63_i32
  let v40 : BitVec 32 := Scalar.extui v39
  let c0_i32_8 : BitVec 32 := 0#32
  let v41 : BitVec 1 := Scalar.cmpi .ne v40 c0_i32_8
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S32x3x512x512_S96x262144 : S32x3x512x512.ShapeCasts S96x262144
  concatenates_S96x262144_S96x262144_S192x262144_d0 : Shape.Concatenates [S96x262144, S96x262144] S192x262144 0
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S16x4096_S16x4096_0_0 : ∀ a, (![0, 0] : Fin 2 → Nat) a + S16x4096.size a ≤ S16x4096.size a
  h_S16x4096 : 0 < S16x4096.numel
  shapeCasts_S16x4096_S16x4096 : S16x4096.ShapeCasts S16x4096
  iota_S1x16x1_d1_w32 : S1x16x1.Iotas .tc 32 [1]
  shapeCasts_S16x4096_S16x1x4096 : S16x4096.ShapeCasts S16x1x4096
  broadcasts_S16x1x4096_S16x16x4096 : S16x1x4096.Broadcasts S16x16x4096
  broadcasts_S1x16x1_S16x16x4096 : S1x16x1.Broadcasts S16x16x4096
  natLt_1_32 : 1 < 32
  bitsLt_bf16_f32 : FTy.bits .bf16 < FTy.bits .f32
  shapeCasts_S16x16x4096_S256x4096 : S16x16x4096.ShapeCasts S256x4096
  inb_S256x256_S16x16_0_0 : ∀ a, (![0, 0] : Fin 2 → Nat) a + S16x16.size a ≤ S256x256.size a
  h_S16x16 : 0 < S16x16.numel
  shapeCasts_S16x16_S1x256 : S16x16.ShapeCasts S1x256
  inb_S256x256_S16x16_16_16 : ∀ a, (![16, 16] : Fin 2 → Nat) a + S16x16.size a ≤ S256x256.size a
  inb_S256x256_S16x16_32_32 : ∀ a, (![32, 32] : Fin 2 → Nat) a + S16x16.size a ≤ S256x256.size a
  inb_S256x256_S16x16_48_48 : ∀ a, (![48, 48] : Fin 2 → Nat) a + S16x16.size a ≤ S256x256.size a
  inb_S256x256_S16x16_64_64 : ∀ a, (![64, 64] : Fin 2 → Nat) a + S16x16.size a ≤ S256x256.size a
  inb_S256x256_S16x16_80_80 : ∀ a, (![80, 80] : Fin 2 → Nat) a + S16x16.size a ≤ S256x256.size a
  inb_S256x256_S16x16_96_96 : ∀ a, (![96, 96] : Fin 2 → Nat) a + S16x16.size a ≤ S256x256.size a
  inb_S256x256_S16x16_112_112 : ∀ a, (![112, 112] : Fin 2 → Nat) a + S16x16.size a ≤ S256x256.size a
  inb_S256x256_S16x16_128_128 : ∀ a, (![128, 128] : Fin 2 → Nat) a + S16x16.size a ≤ S256x256.size a
  inb_S256x256_S16x16_144_144 : ∀ a, (![144, 144] : Fin 2 → Nat) a + S16x16.size a ≤ S256x256.size a
  inb_S256x256_S16x16_160_160 : ∀ a, (![160, 160] : Fin 2 → Nat) a + S16x16.size a ≤ S256x256.size a
  inb_S256x256_S16x16_176_176 : ∀ a, (![176, 176] : Fin 2 → Nat) a + S16x16.size a ≤ S256x256.size a
  inb_S256x256_S16x16_192_192 : ∀ a, (![192, 192] : Fin 2 → Nat) a + S16x16.size a ≤ S256x256.size a
  inb_S256x256_S16x16_208_208 : ∀ a, (![208, 208] : Fin 2 → Nat) a + S16x16.size a ≤ S256x256.size a
  inb_S256x256_S16x16_224_224 : ∀ a, (![224, 224] : Fin 2 → Nat) a + S16x16.size a ≤ S256x256.size a
  inb_S256x256_S16x16_240_240 : ∀ a, (![240, 240] : Fin 2 → Nat) a + S16x16.size a ≤ S256x256.size a
  concatenates_S1x256_S1x256_S1x256_S1x256_S1x256_S1x256_S1x256_S1x256_S1x256_S1x256_S1x256_S1x256_S1x256_S1x256_S1x256_S1x256_S16x256_d0 : Shape.Concatenates [S1x256, S1x256, S1x256, S1x256, S1x256, S1x256, S1x256, S1x256, S1x256, S1x256, S1x256, S1x256, S1x256, S1x256, S1x256, S1x256] S16x256 0
  inb_S16x256_S16x256_0_0 : ∀ a, (![0, 0] : Fin 2 → Nat) a + S16x256.size a ≤ S16x256.size a
  h_S16x256 : 0 < S16x256.numel
  slices_S192x256_S96x256_0_0 : S192x256.Slices ![0, 0] S96x256
  shapeCasts_S96x256_S32x3x256 : S96x256.ShapeCasts S32x3x256
  slices_S192x256_S96x256_96_0 : S192x256.Slices ![96, 0] S96x256
  reducesTo_S32x3x256_S3x256_d0 : S32x3x256.ReducesTo [0] S3x256
  h_S_ : 0 < S_.numel
  bcast_S_S3x256 : S_.BroadcastsInDim S3x256 (![] : Fin 0 → Fin S3x256.rank)
  reducesTo_S3x256_S_d0_1 : S3x256.ReducesTo [0, 1] S_
  dot_S256x4096_S256x4096_S256x256_1_1_0_0_n_n_wf : DotDims.WF S256x4096 S256x4096 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x4096.size a ≤ S192x262144.size a
  hwx0_0 : ∀ i : grid0.Coords, EltTy.bits .f32 = 32 ∨ (Rect.block (s := S192x262144) S16x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S192x256.size a
  hwx0_1 : ∀ i : grid0.Coords, EltTy.bits .f32 = 32 ∨ (Rect.block (s := S192x256) S16x256.size (cc0_transform_1 i) (hinb0_1 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf

abbrev win0_0 : Pipeline.Window sig grid0 :=
  Pipeline.Window.ofSpec (Memref.whole main_v2) S16x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S16x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S32x3x512x512 : Shape := ⟨4, ![32, 3, 512, 512]⟩
abbrev S_ : Shape := ⟨0, ![]⟩
abbrev S96 : Shape := ⟨1, ![96]⟩
abbrev S32x3x1x1 : Shape := ⟨4, ![32, 3, 1, 1]⟩
abbrev S25165824 : Shape := ⟨1, ![25165824]⟩
abbrev S24576 : Shape := ⟨1, ![24576]⟩
abbrev S25165824x1 : Shape := ⟨2, ![25165824, 1]⟩
abbrev S32x3x256 : Shape := ⟨3, ![32, 3, 256]⟩
abbrev S32x3 : Shape := ⟨2, ![32, 3]⟩
abbrev S32x3x1 : Shape := ⟨3, ![32, 3, 1]⟩
abbrev S3x256 : Shape := ⟨2, ![3, 256]⟩

abbrev nBuf : Space → Nat
  | .hbm => 88
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S32x3x512x512, .f32⟩
  | .hbm, ⟨2, _⟩ => ⟨S_, .f32⟩
  | .hbm, ⟨3, _⟩ => ⟨S32x3x512x512, .f32⟩
  | .hbm, ⟨4, _⟩ => ⟨S32x3x512x512, .f32⟩
  | .hbm, ⟨5, _⟩ => ⟨S32x3x512x512, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S32x3x512x512, .i32⟩
  | .hbm, ⟨10, _⟩ => ⟨S32x3x512x512, .i32⟩
  | .hbm, ⟨11, _⟩ => ⟨S_, .i32⟩
  | .hbm, ⟨12, _⟩ => ⟨S32x3x512x512, .i32⟩
  | .hbm, ⟨13, _⟩ => ⟨S32x3x512x512, .i32⟩
  | .hbm, ⟨14, _⟩ => ⟨S96, .i32⟩
  | .hbm, ⟨15, _⟩ => ⟨S_, .i32⟩
  | .hbm, ⟨16, _⟩ => ⟨S96, .i32⟩
  | .hbm, ⟨17, _⟩ => ⟨S96, .i32⟩
  | .hbm, ⟨18, _⟩ => ⟨S32x3x1x1, .i32⟩
  | .hbm, ⟨19, _⟩ => ⟨S32x3x512x512, .i32⟩
  | .hbm, ⟨20, _⟩ => ⟨S32x3x512x512, .i32⟩
  | .hbm, ⟨21, _⟩ => ⟨S25165824, .i32⟩
  | .hbm, ⟨22, _⟩ => ⟨S_, .f32⟩
  | .hbm, ⟨23, _⟩ => ⟨S25165824, .f32⟩
  | .hbm, ⟨24, _⟩ => ⟨S_, .f32⟩
  | .hbm, ⟨25, _⟩ => ⟨S24576, .f32⟩
  | .hbm, ⟨26, _⟩ => ⟨S25165824x1, .i32⟩
  | .hbm, ⟨27, _⟩ => ⟨S24576, .f32⟩
  | .hbm, ⟨28, _⟩ => ⟨S32x3x256, .f32⟩
  | .hbm, ⟨29, _⟩ => ⟨S_, .f32⟩
  | .hbm, ⟨30, _⟩ => ⟨S32x3, .f32⟩
  | .hbm, ⟨31, _⟩ => ⟨S32x3x1, .f32⟩
  | .hbm, ⟨32, _⟩ => ⟨S_, .f32⟩
  | .hbm, ⟨33, _⟩ => ⟨S32x3x1, .f32⟩
  | .hbm, ⟨34, _⟩ => ⟨S32x3x1, .f32⟩
  | .hbm, ⟨35, _⟩ => ⟨S32x3x256, .f32⟩
  | .hbm, ⟨36, _⟩ => ⟨S32x3x256, .f32⟩
  | .hbm, ⟨37, _⟩ => ⟨S_, .f32⟩
  | .hbm, ⟨38, _⟩ => ⟨S32x3x512x512, .f32⟩
  | .hbm, ⟨39, _⟩ => ⟨S32x3x512x512, .f32⟩
  | .hbm, ⟨40, _⟩ => ⟨S32x3x512x512, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S32x3x512x512, .i32⟩
  | .hbm, ⟨45, _⟩ => ⟨S32x3x512x512, .i32⟩
  | .hbm, ⟨46, _⟩ => ⟨S_, .i32⟩
  | .hbm, ⟨47, _⟩ => ⟨S32x3x512x512, .i32⟩
  | .hbm, ⟨48, _⟩ => ⟨S32x3x512x512, .i32⟩
  | .hbm, ⟨49, _⟩ => ⟨S96, .i32⟩
  | .hbm, ⟨50, _⟩ => ⟨S_, .i32⟩
  | .hbm, ⟨51, _⟩ => ⟨S96, .i32⟩
  | .hbm, ⟨52, _⟩ => ⟨S96, .i32⟩
  | .hbm, ⟨53, _⟩ => ⟨S32x3x1x1, .i32⟩
  | .hbm, ⟨54, _⟩ => ⟨S32x3x512x512, .i32⟩
  | .hbm, ⟨55, _⟩ => ⟨S32x3x512x512, .i32⟩
  | .hbm, ⟨56, _⟩ => ⟨S25165824, .i32⟩
  | .hbm, ⟨57, _⟩ => ⟨S_, .f32⟩
  | .hbm, ⟨58, _⟩ => ⟨S25165824, .f32⟩
  | .hbm, ⟨59, _⟩ => ⟨S_, .f32⟩
  | .hbm, ⟨60, _⟩ => ⟨S24576, .f32⟩
  | .hbm, ⟨61, _⟩ => ⟨S25165824x1, .i32⟩
  | .hbm, ⟨62, _⟩ => ⟨S24576, .f32⟩
  | .hbm, ⟨63, _⟩ => ⟨S32x3x256, .f32⟩
  | .hbm, ⟨64, _⟩ => ⟨S_, .f32⟩
  | .hbm, ⟨65, _⟩ => ⟨S32x3, .f32⟩
  | .hbm, ⟨66, _⟩ => ⟨S32x3x1, .f32⟩
  | .hbm, ⟨67, _⟩ => ⟨S_, .f32⟩
  | .hbm, ⟨68, _⟩ => ⟨S32x3x1, .f32⟩
  | .hbm, ⟨69, _⟩ => ⟨S32x3x1, .f32⟩
  | .hbm, ⟨70, _⟩ => ⟨S32x3x256, .f32⟩
  | .hbm, ⟨71, _⟩ => ⟨S32x3x256, .f32⟩
  | .hbm, ⟨72, _⟩ => ⟨S_, .f32⟩
  | .hbm, ⟨73, _⟩ => ⟨S3x256, .f32⟩
  | .hbm, ⟨74, _⟩ => ⟨S_, .f32⟩
  | .hbm, ⟨75, _⟩ => ⟨S3x256, .f32⟩
  | .hbm, ⟨76, _⟩ => ⟨S3x256, .f32⟩
  | .hbm, ⟨77, _⟩ => ⟨S_, .f32⟩
  | .hbm, ⟨78, _⟩ => ⟨S3x256, .f32⟩
  | .hbm, ⟨79, _⟩ => ⟨S_, .f32⟩
  | .hbm, ⟨80, _⟩ => ⟨S3x256, .f32⟩
  | .hbm, ⟨81, _⟩ => ⟨S3x256, .f32⟩
  | .hbm, ⟨82, _⟩ => ⟨S3x256, .f32⟩
  | .hbm, ⟨83, _⟩ => ⟨S3x256, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_7 : Ref sig .tc := ⟨.hbm, 41, rfl⟩
abbrev main_c_8 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v25 : Ref sig .tc := ⟨.hbm, 48, rfl⟩
abbrev main_v26 : Ref sig .tc := ⟨.hbm, 49, rfl⟩
abbrev main_c_9 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_10 : Ref sig .tc := ⟨.hbm, 57, rfl⟩
abbrev main_v33 : Ref sig .tc := ⟨.hbm, 58, rfl⟩
abbrev main_cst_11 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_12 : Ref sig .tc := ⟨.hbm, 64, rfl⟩
abbrev main_v38 : Ref sig .tc := ⟨.hbm, 65, rfl⟩
abbrev main_v39 : Ref sig .tc := ⟨.hbm, 66, rfl⟩
abbrev main_cst_13 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_14 : Ref sig .tc := ⟨.hbm, 72, rfl⟩
abbrev main_v44 : Ref sig .tc := ⟨.hbm, 73, rfl⟩
abbrev main_cst_15 : Ref sig .tc := ⟨.hbm, 74, rfl⟩
abbrev main_v45 : Ref sig .tc := ⟨.hbm, 75, rfl⟩
abbrev main_v46 : Ref sig .tc := ⟨.hbm, 76, rfl⟩
abbrev main_cst_16 : Ref sig .tc := ⟨.hbm, 77, rfl⟩
abbrev main_v47 : Ref sig .tc := ⟨.hbm, 78, rfl⟩
abbrev main_cst_17 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_18 : Ref sig .tc := ⟨.hbm, 84, rfl⟩
abbrev main_v52 : Ref sig .tc := ⟨.hbm, 85, rfl⟩
abbrev main_cst_19 : Ref sig .tc := ⟨.hbm, 86, rfl⟩
abbrev main_v53 : Ref sig .tc := ⟨.hbm, 87, rfl⟩

abbrev nD : Nat := 1
abbrev τ : Topo := Topo.v7x

variable {F : FTy → Type} [FloatOps F]

class Facts₀ : Prop where
  bcast_S_S32x3x512x512 : S_.BroadcastsInDim S32x3x512x512 (![] : Fin 0 → Fin S32x3x512x512.rank)
  bcast_S_S96 : S_.BroadcastsInDim S96 (![] : Fin 0 → Fin S96.rank)
  shapeCasts_S96_S32x3x1x1 : S96.ShapeCasts S32x3x1x1
  bcast_S32x3x1x1_S32x3x512x512_0_1_2_3 : S32x3x1x1.BroadcastsInDim S32x3x512x512 (![0, 1, 2, 3] : Fin 4 → Fin S32x3x512x512.rank)
  shapeCasts_S32x3x512x512_S25165824 : S32x3x512x512.ShapeCasts S25165824
  bcast_S_S25165824 : S_.BroadcastsInDim S25165824 (![] : Fin 0 → Fin S25165824.rank)
  bcast_S_S24576 : S_.BroadcastsInDim S24576 (![] : Fin 0 → Fin S24576.rank)
  bcast_S25165824_S25165824x1_0 : S25165824.BroadcastsInDim S25165824x1 (![0] : Fin 1 → Fin S25165824x1.rank)
  shapeCasts_S24576_S32x3x256 : S24576.ShapeCasts S32x3x256
  reducesTo_S32x3x256_S32x3_d2 : S32x3x256.ReducesTo [2] S32x3
  h_S_ : 0 < S_.numel
  bcast_S32x3_S32x3x1_0_1 : S32x3.BroadcastsInDim S32x3x1 (![0, 1] : Fin 2 → Fin S32x3x1.rank)
  bcast_S_S32x3x1 : S_.BroadcastsInDim S32x3x1 (![] : Fin 0 → Fin S32x3x1.rank)
  bcast_S32x3x1_S32x3x256_0_1_2 : S32x3x1.BroadcastsInDim S32x3x256 (![0, 1, 2] : Fin 3 → Fin S32x3x256.rank)
  reducesTo_S32x3x256_S3x256_d0 : S32x3x256.ReducesTo [0] S3x256
  bcast_S_S3x256 : S_.BroadcastsInDim S3x256 (![] : Fin 0 → Fin S3x256.rank)
  reducesTo_S3x256_S_d0_1 : S3x256.ReducesTo [0, 1] S_
  scatter_S24576_S25165824x1_S25165824_n_0_0_1_wf : ScatterDims.WF S24576 S25165824x1 S25165824 [] [0] [0] 1

variable [Facts₀]

def scatter_S24576_S25165824x1_S25165824_n_0_0_1 : ScatterDims S24576 S25165824x1 S25165824 where
  updateWindowDims := []
  insertedWindowDims := [0]
  scatterDimsToOperandDims := [0]
  indexVectorDim := 1
  wf := scatter_S24576_S25165824x1_S25165824_n_0_0_1_wf

class Facts : Prop extends Facts₀ where

variable [Facts]
-- ==== Proof.KPieces.lean ====
/-
  What each control case of the kernel body leaves behind, as a value.

  The body keeps a 256×256 accumulator across the 64 spatial tiles of a row block. On a tile `x` (16 rows × 4096
  pixels) it adds to the accumulator the product `P(x)` of the two one-hot matrices of the tile (high digit and low
  digit of each pixel's bin, base 16). At the first tile of a row block the accumulator is first set to zero; at the
  last tile the 16 diagonal 16×16 blocks of the accumulator are laid out as the rows of the 16×256 output block and
  scaled. Here the three cases' stores are read back as those terms of the tile and of the accumulator found.
-/
import proofs.«177877_j40140764348889_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.HistValue

open Cert.KernelIdeal Cert.KernelIdeal.Gen

variable {F : FTy → Type} [FloatOps F]

theorem hz : (![0, 0] : Fin 2 → Nat) = fun _ => 0 := funext fun a => by fin_cases a <;> rfl

/-- A middle tile: the accumulator found plus the tile's product. -/
theorem acc_B (c : Dev nD) (i : grid0.Coords) (arg2 : Memref sig .tc .vmem S16x4096 .f32) (harg2 : arg2.IsWhole) (arg3 : Memref sig .tc .vmem S16x256 .f32) (harg3 : arg3.IsWhole) (arg4 : Memref sig .tc .vmem S256x256 .f32) (harg4 : arg4.IsWhole) (hc0 : ¬cond0_0 i) (hc1 : ¬cond0_1 i)
    (x0 : Vec F S16x4096 .f32) (xs0 : Vec F S256x256 .f32) :
    sout0_B_0 c i arg2 harg2 arg3 harg3 arg4 harg4 hc0 hc1 x0 xs0 = k0_pay18 x0 xs0 := by
  unfold sout0_B_0
  rw [View.read_writes_eq_canon _ _ _ (scover0_B_0 c i arg2 harg2 arg3 harg3 arg4 harg4 hc0 hc1 x0 xs0)]
  unfold kernelRun0_B
  dsimp only
  rw [View.canon_unit_zero hz]
  simp only [View.readAt_eq_ld, harg2.read_unread, harg4.read_unread, View.ld_unit_zero (S := S16x4096) hz,
    View.ld_unit_zero (S := S256x256) hz]

/-- The last tile: the accumulator is updated the same way (and then read for the output block). -/
theorem acc_C (c : Dev nD) (i : grid0.Coords) (arg2 : Memref sig .tc .vmem S16x4096 .f32) (harg2 : arg2.IsWhole) (arg3 : Memref sig .tc .vmem S16x256 .f32) (harg3 : arg3.IsWhole) (arg4 : Memref sig .tc .vmem S256x256 .f32) (harg4 : arg4.IsWhole) (hc0 : ¬cond0_0 i) (hc1 : cond0_1 i)
    (x0 : Vec F S16x4096 .f32) (xs0 : Vec F S256x256 .f32) :
    sout0_C_0 c i arg2 harg2 arg3 harg3 arg4 harg4 hc0 hc1 x0 xs0 = k0_pay18 x0 xs0 := by
  unfold sout0_C_0
  rw [View.read_writes_eq_canon _ _ _ (scover0_C_0 c i arg2 harg2 arg3 harg3 arg4 harg4 hc0 hc1 x0 xs0)]
  unfold kernelRun0_C
  dsimp only
  sl_unfold_words
  rw [View.canon_unit_zero hz]
  simp only [View.readAt_eq_ld, harg2.read_unread, harg4.read_unread, View.ld_unit_zero (S := S16x4096) hz,
    View.ld_unit_zero (S := S256x256) hz]

/-- The first tile: the accumulator is set to zero, read back, and the tile's product added. -/
theorem acc_A (c : Dev nD) (i : grid0.Coords) (arg2 : Memref sig .tc .vmem S16x4096 .f32) (harg2 : arg2.IsWhole) (arg3 : Memref sig .tc .vmem S16x256 .f32) (harg3 : arg3.IsWhole) (arg4 : Memref sig .tc .vmem S256x256 .f32) (harg4 : arg4.IsWhole) (hc0 : cond0_0 i) (hc1 : ¬cond0_1 i)
    (x0 : Vec F S16x4096 .f32) :
    sout0_A_0 c i arg2 harg2 arg3 harg3 arg4 harg4 hc0 hc1 x0 = k0_pay18 x0 k0_pay17 := by
  unfold sout0_A_0
  rw [View.read_writes_eq_canon _ _ _ (scover0_A_0 c i arg2 harg2 arg3 harg3 arg4 harg4 hc0 hc1 x0)]
  unfold kernelRun0_A
  dsimp only
  sl_unfold_words
  rw [View.canon_cons_unit_zero (S := S256x256) hz, View.readCov_unit_zero (S := S256x256) _ hz]
  simp only [View.readAt_eq_ld, harg2.read_unread, View.ld_unit_zero (S := S16x4096) hz]

end Cert.KernelIdeal.HistValue

end
-- ==== Proof.LibPlainDot.lean ====
/-
  A matrix product contracted over ONE axis, read at an entry as a sum over `Fin n`.

  The library reads a product at an entry `j` as a sum over the contraction's own index type, the operands read at the
  product's operand indices. When the contraction has one axis of extent `n`, and the operand indices at `j` are known
  functions `li`, `ri` of that axis's coordinate, the sum is over `k : Fin n` of the left operand at `li k` times the
  right operand at `ri k`. Also here: two rank-2 indices are equal when their coordinates are.
-/
import Idealize.ShloMosaic.Lib.ValueIdx
import Idealize.ShloMosaic.PureOps.Ideal.Laws

noncomputable section

namespace Cert.LibPlainDot

open Idealize.ShloMosaic

/-- Two indices of a rank-2 shape are equal when their two coordinates are equal as numbers. -/
theorem ext2 {n0 n1 : ℕ} (i i' : (⟨2, ![n0, n1]⟩ : Shape).Idx) (h0 : (i 0).val = (i' 0).val) (h1 : (i 1).val = (i' 1).val) :
    i = i' :=
  funext fun a => Fin.ext (match a with
    | ⟨0, _⟩ => h0
    | ⟨1, _⟩ => h1)

/-- The sum over a one-axis contraction, re-indexed by the axis's coordinate `k : Fin n`: given what the two operand
    indices are at each contraction index (`hl`, `hr`, stated through the coordinate), the product's sum at `j` is
    `∑ k, f (li k) * g (ri k)`. -/
theorem sum_contr {sl sr so : Shape} (d : DotDims sl sr so) (n : ℕ) (hrk : d.contr.rank = 1)
    (hs : d.contr.size ⟨0, by omega⟩ = n) (j : so.Idx) (f : sl.Idx → EReal) (g : sr.Idx → EReal)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    ∑ q : d.contr.Idx, f (d.lhsIdx j q) * g (d.rhsIdx j q) = ∑ k : Fin n, f (li k) * g (ri k) := by
  rw [← Equiv.sum_comp (ValueIdx.contrEquiv1 d n hrk hs)]
  exact Finset.sum_congr rfl fun q _ => by rw [hl q, hr q]

/-- A product into a zero accumulator on the vector unit, at the exact instance, read at an entry over `Fin n`. -/
theorem matmul_zero_apply {sl sr so : Shape} {φ₁ φ₂ : FTy} (d : DotDims sl sr so) (prec : Option ContractPrecision)
    (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.matmul d prec lhs rhs (constant so .f32 0x00000000#32) j = ∑ k : Fin n, lhs (li k) * rhs (ri k) :=
  (Ideal.matmul_constant_zero_apply d prec lhs rhs j).trans (sum_contr d n hrk hs j lhs rhs li ri hl hr)

/-- A host product at the exact instance, read at an entry over `Fin n`. -/
theorem dotGeneral_apply {sl sr so : Shape} {φ₁ φ₂ : FTy} (d : DotDims sl sr so) (prec : Option ContractPrecision)
    (sched : HostSchedule) (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.dotGeneral d prec sched lhs rhs j = ∑ k : Fin n, lhs (li k) * rhs (ri k) :=
  (Ideal.dotGeneral_apply d prec sched lhs rhs j).trans (sum_contr d n hrk hs j lhs rhs li ri hl hr)

end Cert.LibPlainDot

end
-- ==== Proof.KOut.lean ====
/-
  The output block of the last tile of a row block.

  After the last tile the accumulator `W` (256×256) holds, in its n-th diagonal 16×16 block, the counts of row n of the
  row block: entry (h, l) of that block counts the pixels whose bin is 16·h + l. The body lays diagonal block n out
  row-major as row n of the 16×256 output block and multiplies by the float word of 2⁻¹⁸. So entry (n, 16·h + l) of
  the output block is `W (16·n + h, 16·n + l)` times that word.
-/
import proofs.«177877_j40140764348889_2_alg».proof.Proof.KPieces
import proofs.«177877_j40140764348889_2_alg».proof.Proof.LibPlainDot
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.HistValue

open Cert.KernelIdeal Cert.KernelIdeal.Gen

open Idealize.ShloMosaic.ValueIdx

variable {F : FTy → Type} [FloatOps F]

theorem diag_inb (n : Fin 16) : ∀ a, (![16 * n.val, 16 * n.val] : Fin 2 → Nat) a + S16x16.size a ≤ S256x256.size a := by
  intro a
  have := n.isLt
  match a with
  | ⟨0, _⟩ => show 16 * n.val + 16 ≤ 256; omega
  | ⟨1, _⟩ => show 16 * n.val + 16 ≤ 256; omega

/-- The n-th diagonal 16×16 block of the 256×256 accumulator, as a rectangle. -/
abbrev diagRect (n : Fin 16) : Rect S256x256 := Rect.unit ![16 * n.val, 16 * n.val] S16x16.size (diag_inb n)

/-- Diagonal block `n` of `W` laid out row-major as one row of 256. -/
def diagRow (W : Vec F S256x256 .f32) (n : Fin 16) : FVec F S1x256 .f32 :=
  shapeCast S1x256 (View.ld W (diagRect n)) shapeCasts_S16x16_S1x256

/-- The output block: the 16 diagonal blocks as rows, scaled. -/
def outBlock (W : Vec F S256x256 .f32) : FVec F S16x256 .f32 :=
  mulf (concatenate S16x256 0 (List.ofFn fun n : Fin 16 => (⟨S1x256, diagRow W n⟩ : (s : Shape) × (s.Idx → F .f32)))
      concatenates_S1x256_S1x256_S1x256_S1x256_S1x256_S1x256_S1x256_S1x256_S1x256_S1x256_S1x256_S1x256_S1x256_S1x256_S1x256_S1x256_S16x256_d0)
    (broadcast S16x256 (Scalar.ofBits .f32 0x36800000#32))

/-- A load through a rectangle of what one covering store left reads the stored value through the rectangle. -/
theorem readCov_whole (v : View sig .tc .vmem S256x256 .f32) (W : S256x256.Idx → Elt F .f32)
    (inb0 : ∀ a, (![0, 0] : Fin 2 → Nat) a + S256x256.size a ≤ S256x256.size a) (r : Rect S256x256) :
    v.readCov [(⟨Rect.unit ![0, 0] S256x256.size inb0, W⟩ : View.Piece (Elt F) S256x256 .f32)] r.toLoadRect = View.ld W r := by
  rw [View.readCov_eq_canon_ld _ _ _ (fun y => ⟨_, List.mem_singleton_self _, View.mem_set_unit_zero hz inb0 y⟩),
    View.canon_unit_zero hz]

/-- The last tile's output block: the rows are the diagonal blocks of the updated accumulator. -/
theorem out_C (c : Dev nD) (i : grid0.Coords) (arg2 : Memref sig .tc .vmem S16x4096 .f32) (harg2 : arg2.IsWhole) (arg3 : Memref sig .tc .vmem S16x256 .f32) (harg3 : arg3.IsWhole) (arg4 : Memref sig .tc .vmem S256x256 .f32) (harg4 : arg4.IsWhole) (hc0 : ¬cond0_0 i) (hc1 : cond0_1 i)
    (x0 : Vec F S16x4096 .f32) (xs0 : Vec F S256x256 .f32) :
    out0_C_1 c i arg2 harg2 arg3 harg3 arg4 harg4 hc0 hc1 x0 xs0 = outBlock (k0_pay18 x0 xs0) := by
  unfold out0_C_1
  rw [View.read_writes_eq_canon _ _ _ (cover0_C_1 c i arg2 harg2 arg3 harg3 arg4 harg4 hc0 hc1 x0 xs0)]
  unfold kernelRun0_C
  dsimp only
  sl_unfold_words
  rw [View.canon_unit_zero hz]
  simp only [View.readAt_eq_ld, harg2.read_unread, harg4.read_unread, View.ld_unit_zero (S := S16x4096) hz,
    View.ld_unit_zero (S := S256x256) hz]
  simp only [readCov_whole arg4.view (k0_pay18 x0 xs0) inb_S256x256_S256x256_0_0]
  rfl

end Cert.KernelIdeal.HistValue

end
-- ==== Proof.KOutAt.lean ====
/-
  An entry of the output block: entry (n, 16·h + l) is the accumulator's entry (16·n + h, 16·n + l) times the float
  word of 2⁻¹⁸ — row n of the block is diagonal block n laid out row-major.
-/
import proofs.«177877_j40140764348889_2_alg».proof.Proof.KOut

set_option maxRecDepth 16384

noncomputable section

open Idealize.ShloMosaic Idealize.ShloMosaic.TcCoe Idealize.SL.Sem
open Idealize.ShloMosaic.Pipeline (Dat)

namespace Cert.KernelIdeal.HistValue

open Cert.KernelIdeal Cert.KernelIdeal.Gen

open Idealize.ShloMosaic.ValueIdx

theorem outBlock_apply (W : Vec Ideal S256x256 .f32) (n h l : Fin 16) :
    outBlock (F := Ideal) W (ix2 n (⟨16 * h.val + l.val, by omega⟩ : Fin 256))
      = W (ix2 (⟨16 * n.val + h.val, by omega⟩ : Fin 256) (⟨16 * n.val + l.val, by omega⟩ : Fin 256))
        * Ideal.ofBits .f32 0x36800000#32 := by
  have hn := n.isLt
  have hh := h.isLt
  have hl := l.isLt
  unfold outBlock
  show concatenate S16x256 0 _ _ (ix2 n (⟨16 * h.val + l.val, by omega⟩ : Fin 256)) * Ideal.ofBits .f32 0x36800000#32 = _
  congr 1
  refine (concatenate_ofFn_unit_apply (t := S16x256) (s₁ := S1x256) (0 : Fin 2) (fun k : Fin 16 => diagRow W k)
    concatenates_S1x256_S1x256_S1x256_S1x256_S1x256_S1x256_S1x256_S1x256_S1x256_S1x256_S1x256_S1x256_S1x256_S1x256_S1x256_S1x256_S16x256_d0
    (rfl : S1x256.rank = S16x256.rank) rfl
    (ix2 n (⟨16 * h.val + l.val, by omega⟩ : Fin 256)) n rfl
    (ix2 (0 : Fin 1) (⟨16 * h.val + l.val, by omega⟩ : Fin 256))
    (fun b hb => match b with
      | ⟨0, _⟩ => absurd rfl hb
      | ⟨1, _⟩ => rfl)).trans ?_
  unfold diagRow
  rw [shapeCast_apply _ _ _ (ix2 h l) (by
    rw [Shape.rowMajor_val_two, Shape.rowMajor_val_two]
    show h.val * 16 + l.val = 0 * 256 + (16 * h.val + l.val)
    omega)]
  show W ((diagRect n).idx (ix2 h l)) = _
  refine congrArg W (Cert.LibPlainDot.ext2 _ _ ?_ ?_)
  · show 16 * n.val + 1 * h.val = 16 * n.val + h.val
    omega
  · show 16 * n.val + 1 * l.val = 16 * n.val + l.val
    omega

end Cert.KernelIdeal.HistValue

end
-- ==== Proof.HistSpec.lean ====
/-
  The histogram both programs compute, stated once over plain index types.

  For an image batch `A` of shape [32, 3, 512, 512] and a slice (b, c), every one of the slice's 512·512 = 262144
  pixels falls into exactly one of 256 bins: the pixel value times 256, converted to a signed 32-bit integer toward
  zero, clamped to [0, 255]. The normalized histogram of the slice is, per bin, the number of its pixels in that bin
  times 2⁻¹⁸ = 1 / 262144. Pixels of a slice are numbered by their flat position `p = 512·h + w`.
-/
import Idealize.ShloMosaic.PureOps.Ideal
import Idealize.ShloMosaic.Lib.ValueIdx

noncomputable section

namespace Cert.HistSpec

open Idealize.ShloMosaic Idealize.ShloMosaic.ValueIdx

/-- The shape of an image batch. -/
abbrev SImg : Shape := ⟨4, ![32, 3, 512, 512]⟩
/-- The shape of a batch of per-slice histograms. -/
abbrev SHist : Shape := ⟨3, ![32, 3, 256]⟩

/-- The bin of a pixel value `x`: `x · 256` converted to a signed 32-bit word toward zero (an infinity to the end
    of the range), then clamped below by 0 and above by 255. -/
def bin (x : EReal) : BitVec 32 :=
  IntOp.minsi 255#32 (IntOp.maxsi 0#32 (Ideal.fptosi 32 (x * Ideal.ofBits .f32 0x43800000#32)))

/-- Pixel `p` (flat position `512·h + w`) of slice (b, c) of the batch. -/
def pix (A : SImg.Idx → EReal) (b : Fin 32) (c : Fin 3) (p : Fin 262144) : EReal :=
  A (ix4 b c (⟨p.val / 512, by omega⟩ : Fin 512) (⟨p.val % 512, by omega⟩ : Fin 512))

/-- How many pixels of slice (b, c) fall into the bin whose word is `v`, as an extended real. -/
def count (A : SImg.Idx → EReal) (b : Fin 32) (c : Fin 3) (v : BitVec 32) : EReal :=
  ∑ p : Fin 262144, if bin (pix A b c p) = v then (1 : EReal) else 0

/-- The normalized histograms of a batch: entry (b, c, k) is the number of pixels of slice (b, c) in bin `k`, times
    the float word of 2⁻¹⁸. -/
def histOf (A : SImg.Idx → EReal) : SHist.Idx → EReal := fun j =>
  count A (j 0) (j 1) (BitVec.ofNat 32 (j 2).val) * Ideal.ofBits .f32 0x36800000#32

end Cert.HistSpec

end
-- ==== Proof.KMat.lean ====
/-
  The tile's product at a diagonal entry is a count.

  For a tile `x` (16 rows × 4096 pixels) let `w r q` be the bin word of pixel (r, q): a 32-bit word between 0 and 255.
  The body forms two 0/1 matrices with 256 rows and 4096 columns: row 16·r + h of the first has a one at column q when
  the high base-16 digit of `w r q` (the word shifted right by 4) is h; row 16·r + l of the second has a one at
  column q when the low digit (the word and 15) is l. Their product, contracted over the 4096 columns, has at
  entry (16·r + h, 16·r + l) the number of pixels q of row r with high digit h and low digit l, that is with
  `w r q = 16·h + l`. The body adds this product to the accumulator it found.
-/
import proofs.«177877_j40140764348889_2_alg».proof.Proof.Gen.KernelIdeal.Skeleton
import proofs.«177877_j40140764348889_2_alg».proof.Proof.HistSpec
import proofs.«177877_j40140764348889_2_alg».proof.Proof.LibPlainDot
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.ValueIdx

namespace Cert.KernelIdeal.HistMat

open Cert.KernelIdeal Cert.KernelIdeal.Gen

/-! ## Words between 0 and 255 and their two base-16 digits -/

/-- The clamp of any word to [0, 255], read unsigned, is below 256. -/
theorem clamp_lt (w : BitVec 32) : (IntOp.minsi 255#32 (IntOp.maxsi 0#32 w)).toNat < 256 := by
  unfold IntOp.minsi IntOp.maxsi
  simp only [BitVec.slt, decide_eq_true_eq]
  have e := BitVec.toInt_eq_toNat_cond w
  have h0 : (0#32 : BitVec 32).toInt = 0 := by decide
  have h255 : (255#32 : BitVec 32).toInt = 255 := by decide
  by_cases h1 : w.toInt < (0#32 : BitVec 32).toInt
  · rw [if_pos h1]
    by_cases h2 : (255#32 : BitVec 32).toInt < (0#32 : BitVec 32).toInt
    · rw [if_pos h2]; decide
    · rw [if_neg h2]; decide
  · rw [if_neg h1]
    by_cases h2 : (255#32 : BitVec 32).toInt < w.toInt
    · rw [if_pos h2]; decide
    · rw [if_neg h2]
      rw [h0] at h1; rw [h255] at h2
      have hlt := w.isLt
      split_ifs at e <;> omega

/-- The high digit of a word below 256. -/
theorem shr4_toNat (v : BitVec 32) (hv : v.toNat < 256) : (IntOp.shrsi .vector v 4#32).toNat = v.toNat / 16 := by
  have hmsb : v.msb = false := by
    rw [BitVec.msb_eq_decide]; simp only [decide_eq_false_iff_not, not_le]; omega
  unfold IntOp.shrsi
  rw [if_pos (by decide)]
  show (v.sshiftRight 4).toNat = v.toNat / 16
  rw [BitVec.sshiftRight_eq_of_msb_false hmsb, BitVec.toNat_ushiftRight, Nat.shiftRight_eq_div_pow]

/-- The low digit of a word. -/
theorem and15_toNat (v : BitVec 32) : (IntOp.andi v 15#32).toNat = v.toNat % 16 := by
  unfold IntOp.andi
  rw [BitVec.toNat_and]
  exact Nat.and_two_pow_sub_one_eq_mod v.toNat 4

/-- A word below 256 has high digit h and low digit l exactly when it is the word of 16·h + l. -/
theorem digits_iff (v : BitVec 32) (hv : v.toNat < 256) (h l : Fin 16) :
    (IntOp.shrsi .vector v 4#32 = BitVec.ofNat 32 h.val ∧ IntOp.andi v 15#32 = BitVec.ofNat 32 l.val)
      ↔ v = BitVec.ofNat 32 (16 * h.val + l.val) := by
  have hh := h.isLt
  have hl := l.isLt
  rw [← BitVec.toNat_inj, ← BitVec.toNat_inj, ← BitVec.toNat_inj, shr4_toNat v hv, and15_toNat,
    BitVec.toNat_ofNat, BitVec.toNat_ofNat, BitVec.toNat_ofNat]
  omega

/-! ## The tile's bin words and the two one-hot matrices -/

/-- The bin word of each pixel of a tile: the value times 256 as a signed word toward zero, clamped to [0, 255]. -/
def binw (x : Vec Ideal S16x4096 .f32) : IVec S16x4096 32 :=
  minsi (broadcast S16x4096 255#32) (maxsi (broadcast S16x4096 0#32)
    (fptosi (F := Ideal) (φ := .f32) 32 (mulf (F := Ideal) (φ := .f32) x (broadcast S16x4096 (Scalar.ofBits (F := Ideal) .f32 0x43800000#32)))))

theorem binw_apply (x : Vec Ideal S16x4096 .f32) (r : Fin 16) (q : Fin 4096) :
    binw x (ix2 r q) = Cert.HistSpec.bin (x (ix2 r q)) := rfl

theorem binw_lt (x : Vec Ideal S16x4096 .f32) (i : S16x4096.Idx) : (binw x i).toNat < 256 := clamp_lt _

/-- The 0/1 matrix of a digit `d` of the tile's words: row 16·r + h, column q holds 1 when digit `d r q` is `h`. -/
def onehot (d : IVec S16x4096 32) : FVec Ideal S256x4096 .bf16 :=
  shapeCast S256x4096
    (truncf .bf16 (sitofp .f32 (extui 32 (cmpi .eq
      (broadcastTo S16x16x4096 (shapeCast S16x1x4096 d shapeCasts_S16x4096_S16x1x4096) broadcasts_S16x1x4096_S16x16x4096)
      (broadcastTo S16x16x4096 (iota .tc S1x16x1 32 [1] iota_S1x16x1_d1_w32) broadcasts_S1x16x1_S16x16x4096)) natLt_1_32)
      : FVec Ideal S16x16x4096 .f32) bitsLt_bf16_f32)
    shapeCasts_S16x16x4096_S256x4096

theorem onehot_apply (d : IVec S16x4096 32) (r h : Fin 16) (q : Fin 4096) :
    onehot d (ix2 (⟨16 * r.val + h.val, by omega⟩ : Fin 256) q)
      = if d (ix2 r q) = BitVec.ofNat 32 h.val then (1 : EReal) else 0 := by
  have hr := r.isLt
  have hh := h.isLt
  have hq := q.isLt
  unfold onehot
  rw [shapeCast_apply _ _ _ (ix3 r h q) (by
    rw [Shape.rowMajor_val_three, Shape.rowMajor_val_two]
    show (r.val * 16 + h.val) * 4096 + q.val = (16 * r.val + h.val) * 4096 + q.val
    omega)]
  show (((((IntOp.cmpi .eq
      (broadcastTo S16x16x4096 (shapeCast S16x1x4096 d shapeCasts_S16x4096_S16x1x4096) broadcasts_S16x1x4096_S16x16x4096 (ix3 r h q))
      (broadcastTo S16x16x4096 (iota .tc S1x16x1 32 [1] iota_S1x16x1_d1_w32) broadcasts_S1x16x1_S16x16x4096 (ix3 r h q))).setWidth 32).toInt : ℝ)) : EReal) = _
  rw [broadcastTo_apply _ _ (ix3 r h q) (ix3 r (0 : Fin 1) q) (fun a => match a with | ⟨0, _⟩ => rfl | ⟨1, _⟩ => rfl | ⟨2, _⟩ => rfl),
    broadcastTo_apply _ _ (ix3 r h q) (ix3 (0 : Fin 1) h (0 : Fin 1)) (fun a => match a with | ⟨0, _⟩ => rfl | ⟨1, _⟩ => rfl | ⟨2, _⟩ => rfl),
    shapeCast_apply _ _ (ix3 r (0 : Fin 1) q) (ix2 r q) (by
      rw [Shape.rowMajor_val_two, Shape.rowMajor_val_three]
      show r.val * 4096 + q.val = (r.val * 1 + 0) * 4096 + q.val
      omega),
    iota_single_apply]
  show (((((IntOp.cmpi .eq (d (ix2 r q)) (BitVec.ofNat 32 h.val)).setWidth 32).toInt : ℝ)) : EReal) = _
  unfold IntOp.cmpi
  by_cases e : d (ix2 r q) = BitVec.ofNat 32 h.val
  · rw [if_pos e, e]; simp
  · rw [if_neg e]
    have hb : (d (ix2 r q) == BitVec.ofNat 32 h.val) = false := by simpa using e
    simp [hb]

/-- The body's update of the accumulator, with the tile's words named. -/
theorem pay18_eq (x : Vec Ideal S16x4096 .f32) (acc : Vec Ideal S256x256 .f32) :
    Gen.k0_pay18 (F := Ideal) x acc
      = addf (acc : FVec Ideal S256x256 .f32)
          (matmul dot_S256x4096_S256x4096_S256x256_1_1_0_0_n_n none
            (onehot (shrsi (binw x) (broadcast S16x4096 4#32)))
            (onehot (andi (binw x) (broadcast S16x4096 15#32)))
            (constant S256x256 .f32 0x00000000#32)) := by
  unfold Gen.k0_pay18
  simp only [shapeCast_self]
  rfl

/-- At a diagonal entry the update adds the number of pixels of row `r` of the tile whose bin is 16·h + l. -/
theorem pay18_diag (x : Vec Ideal S16x4096 .f32) (acc : Vec Ideal S256x256 .f32) (r h l : Fin 16) :
    Gen.k0_pay18 (F := Ideal) x acc (ix2 (⟨16 * r.val + h.val, by omega⟩ : Fin 256) (⟨16 * r.val + l.val, by omega⟩ : Fin 256))
      = acc (ix2 (⟨16 * r.val + h.val, by omega⟩ : Fin 256) (⟨16 * r.val + l.val, by omega⟩ : Fin 256))
        + ∑ q : Fin 4096, (if Cert.HistSpec.bin (x (ix2 r q)) = BitVec.ofNat 32 (16 * h.val + l.val) then (1 : EReal) else 0) := by
  rw [pay18_eq, addf_apply]
  simp only [matmul]
  rw [Cert.LibPlainDot.matmul_zero_apply dot_S256x4096_S256x4096_S256x256_1_1_0_0_n_n none 4096 rfl rfl _ _ _
    (fun q => ix2 (⟨16 * r.val + h.val, by omega⟩ : Fin 256) q) (fun q => ix2 (⟨16 * r.val + l.val, by omega⟩ : Fin 256) q)
    (fun k => Cert.LibPlainDot.ext2 _ _ rfl (by
      rw [DotDims.lhsIdx_val_of_single _ (cl := 1) rfl]; rfl))
    (fun k => Cert.LibPlainDot.ext2 _ _ rfl (by
      rw [DotDims.rhsIdx_val_of_single _ (cr := 1) rfl]; rfl))]
  refine congrArg (fun z : EReal => acc (ix2 (⟨16 * r.val + h.val, by omega⟩ : Fin 256) (⟨16 * r.val + l.val, by omega⟩ : Fin 256)) + z) ?_
  refine Finset.sum_congr rfl fun q _ => ?_
  rw [onehot_apply, onehot_apply]
  show (if IntOp.shrsi .vector (binw x (ix2 r q)) 4#32 = _ then (1 : EReal) else 0)
      * (if IntOp.andi (binw x (ix2 r q)) 15#32 = _ then (1 : EReal) else 0) = _
  rw [← binw_apply]
  by_cases e : binw x (ix2 r q) = BitVec.ofNat 32 (16 * h.val + l.val)
  · rw [if_pos e, if_pos ((digits_iff _ (binw_lt x _) h l).mpr e).1, if_pos ((digits_iff _ (binw_lt x _) h l).mpr e).2, mul_one]
  · rw [if_neg e]
    by_cases e1 : IntOp.shrsi .vector (binw x (ix2 r q)) 4#32 = BitVec.ofNat 32 h.val
    · rw [if_pos e1, if_neg (fun e2 => e ((digits_iff _ (binw_lt x _) h l).mp ⟨e1, e2⟩)), mul_zero]
    · rw [if_neg e1, zero_mul]

end Cert.KernelIdeal.HistMat

end
-- ==== Proof.KAcc.lean ====
/-
  The accumulator after each grid point.

  Grid point number n is tile k = n mod 64 of row block i = n div 64. By the three cases of the body, after point n the
  accumulator is the update (by this point's tile) of zero when k = 0, and of what point n − 1 left otherwise. So its
  diagonal entry (16·r + h, 16·r + l) after point n is the sum over the tiles 0 … k of row block i of the number of
  pixels of row r of the tile whose bin is 16·h + l — by induction on n. At the last tile of a row block the output
  block is read off the accumulator the same point leaves.
-/
import proofs.«177877_j40140764348889_2_alg».proof.Proof.KOutAt
import proofs.«177877_j40140764348889_2_alg».proof.Proof.KMat

set_option maxRecDepth 16384

noncomputable section

open Idealize.ShloMosaic Idealize.ShloMosaic.TcCoe Idealize.SL.Sem
open Idealize.ShloMosaic.Pipeline (Dat)

namespace Cert.KernelIdeal.HistValue

open Cert.KernelIdeal Cert.KernelIdeal.Gen

open Idealize.ShloMosaic.ValueIdx Cert.KernelIdeal.HistMat

section AnyInstance
variable {F : FTy → Type} [FloatOps F]
variable (m : (ℓ : Loc nD τ sig) → Buf (Elt F) ℓ)

/-- First tile of a row block: the update of zero. -/
theorem accAt_A (c : Dev nD) (t : Fin cfg0.N) (h0 : t.val % 64 = 0) (h1 : ¬t.val % 64 = 63) :
    (outsAt0 m c t.val t.isLt).2 = k0_pay18 (iblk m c 0 t) k0_pay17 :=
  (congrArg Prod.snd (outsAt0_A m c t h0 h1)).trans
    (acc_A (F := F) c (grid0.coords t) (ms0_0 t) (hs0_0 t) (ms0_1 t) (hs0_1 t) scM0_0 (Memref.isWhole_whole _) ((hcond0_0 t).mpr h0) (fun h => h1 ((hcond0_1 t).mp h)) (iblk m c 0 t))

/-- A middle tile: the update of what the point before left. -/
theorem accAt_B (c : Dev nD) (t : Fin cfg0.N) (h0 : ¬t.val % 64 = 0) (h1 : ¬t.val % 64 = 63) :
    (outsAt0 m c t.val t.isLt).2
      = k0_pay18 (iblk m c 0 t) (outsAt0 m c (t.val - 1) (Nat.lt_of_le_of_lt (Nat.sub_le _ _) t.isLt)).2 :=
  (congrArg Prod.snd (outsAt0_B m c t h0 h1)).trans
    (acc_B (F := F) c (grid0.coords t) (ms0_0 t) (hs0_0 t) (ms0_1 t) (hs0_1 t) scM0_0 (Memref.isWhole_whole _) (fun h => h0 ((hcond0_0 t).mp h)) (fun h => h1 ((hcond0_1 t).mp h)) (iblk m c 0 t)
      (outsAt0 m c (t.val - 1) (Nat.lt_of_le_of_lt (Nat.sub_le _ _) t.isLt)).2)

/-- The last tile: the same update, -/
theorem accAt_C (c : Dev nD) (t : Fin cfg0.N) (h0 : ¬t.val % 64 = 0) (h1 : t.val % 64 = 63) :
    (outsAt0 m c t.val t.isLt).2
      = k0_pay18 (iblk m c 0 t) (outsAt0 m c (t.val - 1) (Nat.lt_of_le_of_lt (Nat.sub_le _ _) t.isLt)).2 :=
  (congrArg Prod.snd (outsAt0_C m c t h0 h1)).trans
    (acc_C (F := F) c (grid0.coords t) (ms0_0 t) (hs0_0 t) (ms0_1 t) (hs0_1 t) scM0_0 (Memref.isWhole_whole _) (fun h => h0 ((hcond0_0 t).mp h)) ((hcond0_1 t).mpr h1) (iblk m c 0 t)
      (outsAt0 m c (t.val - 1) (Nat.lt_of_le_of_lt (Nat.sub_le _ _) t.isLt)).2)

/-- and the output block is read off the updated accumulator. -/
theorem outAt_C (c : Dev nD) (t : Fin cfg0.N) (h0 : ¬t.val % 64 = 0) (h1 : t.val % 64 = 63) :
    (outsAt0 m c t.val t.isLt).1 = outBlock (outsAt0 m c t.val t.isLt).2 := by
  rw [accAt_C m c t h0 h1]
  exact (congrArg Prod.fst (outsAt0_C m c t h0 h1)).trans
    (out_C (F := F) c (grid0.coords t) (ms0_0 t) (hs0_0 t) (ms0_1 t) (hs0_1 t) scM0_0 (Memref.isWhole_whole _) (fun h => h0 ((hcond0_0 t).mp h)) ((hcond0_1 t).mpr h1) (iblk m c 0 t)
      (outsAt0 m c (t.val - 1) (Nat.lt_of_le_of_lt (Nat.sub_le _ _) t.isLt)).2)

end AnyInstance

/-! ## At the exact instance -/

variable (m : (ℓ : Loc nD τ sig) → Buf (Elt Ideal) ℓ)

/-- The index 16·r + h of a row or column of the accumulator. -/
abbrev dI (r h : Fin 16) : Fin 256 := ⟨16 * r.val + h.val, by have := r.isLt; have := h.isLt; omega⟩

/-- The number of pixels of row `r` of the tile of point `p` whose bin is 16·h + l (zero for a `p` off the grid). -/
def tileCount (c : Dev nD) (p : ℕ) (r h l : Fin 16) : EReal :=
  if hp : p < cfg0.N then
    ∑ q : Fin 4096, (if Cert.HistSpec.bin ((iblk m c 0 ⟨p, hp⟩ : Vec Ideal S16x4096 .f32) (ix2 r q))
        = BitVec.ofNat 32 (16 * h.val + l.val) then (1 : EReal) else 0)
  else 0

/-- One update at a diagonal entry adds the tile's count. -/
theorem step_diag (c : Dev nD) (t : Fin cfg0.N) (acc : Vec Ideal S256x256 .f32) (r h l : Fin 16) :
    k0_pay18 (F := Ideal) (iblk m c 0 t) acc (ix2 (dI r h) (dI r l))
      = acc (ix2 (dI r h) (dI r l)) + tileCount m c t.val r h l := by
  rw [tileCount, dif_pos t.isLt]
  exact pay18_diag (iblk m c 0 t) acc r h l

/-- The zero the first tile starts from. -/
theorem pay17_zero (j : S256x256.Idx) : k0_pay17 (F := Ideal) j = 0 := by
  unfold k0_pay17
  simp only [shapeCast_self]
  exact Ideal.ofBits_zero_f32

/-- The accumulator's diagonal entries after point `n`: the counts of the tiles 0 … n mod 64 of the row block. -/
theorem acc_inv (c : Dev nD) : ∀ (n : ℕ) (hn : n < cfg0.N) (r h l : Fin 16),
    (outsAt0 m c n hn).2 (ix2 (dI r h) (dI r l))
      = ∑ k ∈ Finset.range (n % 64 + 1), tileCount m c (n / 64 * 64 + k) r h l
  | 0, hn, r, h, l => by
    have e := accAt_A m c ⟨0, hn⟩ rfl (by show ¬(0 % 64 = 63); decide)
    rw [show (outsAt0 m c 0 hn).2 = _ from e, step_diag, pay17_zero, zero_add]
    simp
  | n + 1, hn, r, h, l => by
    have hN : cfg0.N = 768 := N_0
    by_cases h0 : (n + 1) % 64 = 0
    · have h1 : ¬(n + 1) % 64 = 63 := by omega
      have e := accAt_A m c ⟨n + 1, hn⟩ h0 h1
      rw [show (outsAt0 m c (n + 1) hn).2 = _ from e, step_diag, pay17_zero, zero_add, h0, Finset.sum_range_one]
      show tileCount m c (n + 1) r h l = _
      congr 1
      omega
    · have step : (outsAt0 m c (n + 1) hn).2
          = k0_pay18 (iblk m c 0 ⟨n + 1, hn⟩) (outsAt0 m c n (Nat.lt_of_succ_lt hn)).2 := by
        by_cases h1 : (n + 1) % 64 = 63
        · exact accAt_C m c ⟨n + 1, hn⟩ h0 h1
        · exact accAt_B m c ⟨n + 1, hn⟩ h0 h1
      rw [step, step_diag m c ⟨n + 1, hn⟩, acc_inv c n (Nat.lt_of_succ_lt hn) r h l]
      have e1 : (n + 1) % 64 = n % 64 + 1 := by omega
      have e2 : (n + 1) / 64 = n / 64 := by omega
      rw [e1, e2, Finset.sum_range_succ _ (n % 64 + 1)]
      congr 2
      show n + 1 = n / 64 * 64 + (n % 64 + 1)
      omega

end Cert.KernelIdeal.HistValue

end
-- ==== Proof.KArr.lean ====
/-
  From the blocks to the whole output array.

  The kernel's operand is an array X of 192 rows of 262144 pixels; its output has 192 rows of 256 bins. Grid point
  number t works on row block t div 64 (rows 16·(t div 64) … + 15) and on pixels 4096·(t mod 64) … + 4095. After the
  last tile of a row block the accumulated counts are those of all 64 tiles, that is of all 262144 pixels of each of
  the block's rows, and the output block written back there is rows 16·(t div 64) … + 15 of the array
  `rowHist X`: at (R, b) the number of pixels of row R in bin b, times the word of 2⁻¹⁸. The twelve written-back
  blocks cover the output array.
-/
import proofs.«177877_j40140764348889_2_alg».proof.Proof.KAcc

set_option maxRecDepth 16384

noncomputable section

open Idealize.ShloMosaic Idealize.ShloMosaic.TcCoe Idealize.SL.Sem
open Idealize.ShloMosaic.Pipeline (Dat)

namespace Cert.KernelIdeal.HistValue

open Cert.KernelIdeal Cert.KernelIdeal.Gen

open Idealize.ShloMosaic.ValueIdx Cert.KernelIdeal.HistMat

variable (m : (ℓ : Loc nD τ sig) → Buf (Elt Ideal) ℓ)

/-- The number of pixels of row `R` of `X` in bin `b`. -/
def rowCount (X : S192x262144.Idx → EReal) (R : Fin 192) (b : ℕ) : EReal :=
  ∑ p : Fin 262144, (if Cert.HistSpec.bin (X (ix2 R p)) = BitVec.ofNat 32 b then (1 : EReal) else 0)

/-- The normalized histogram of every row of `X`. -/
def rowHist (X : S192x262144.Idx → EReal) : S192x256.Idx → EReal := fun i =>
  rowCount X (i 0) (i 1).val * Ideal.ofBits .f32 0x36800000#32

/-- The printed index maps over the grid: the operand's block is (t div 64, t mod 64), the output's (t div 64, 0). -/
theorem idx_facts : ∀ t : Fin cfg0.N, win0_0.index t (0 : Fin 2) = t.val / 64 ∧ win0_0.index t (1 : Fin 2) = t.val % 64
    ∧ win0_1.index t (0 : Fin 2) = t.val / 64 ∧ win0_1.index t (1 : Fin 2) = 0 :=
  (by decide +kernel : ∀ t : Fin grid0.N, _)

/-- An entry of the tile of point `t` is an entry of the operand array. -/
theorem tile_apply (c : Dev nD) (t : Fin cfg0.N) (n : Fin 16) (q : Fin 4096)
    (R : Fin 192) (p : Fin 262144) (hR : R.val = 16 * (t.val / 64) + n.val) (hp : p.val = 4096 * (t.val % 64) + q.val) :
    (iblk m c 0 t : Vec Ideal S16x4096 .f32) (ix2 n q) = V m c main_v2 (ix2 R p) := by
  obtain ⟨e0, e1, -, -⟩ := idx_facts t
  unfold iblk
  rw [View.read_apply]
  show V m c main_v2 _ = V m c main_v2 _
  congr 1
  funext a
  apply Fin.ext
  match a with
  | ⟨0, _⟩ => show win0_0.index t 0 * 16 + 1 * n.val = R.val; rw [e0, hR]; omega
  | ⟨1, _⟩ => show win0_0.index t 1 * 4096 + 1 * q.val = p.val; rw [e1, hp]; omega

/-- Tile `k` and pixel `q` of the tile name pixel 4096·k + q of the row. -/
def tileEquiv : Fin 64 × Fin 4096 ≃ Fin 262144 where
  toFun x := ⟨4096 * x.1.val + x.2.val, by have := x.1.isLt; have := x.2.isLt; omega⟩
  invFun p := (⟨p.val / 4096, by have := p.isLt; omega⟩, ⟨p.val % 4096, by omega⟩)
  left_inv x := by
    have h1 := x.1.isLt
    have h2 := x.2.isLt
    refine Prod.ext (Fin.ext ?_) (Fin.ext ?_)
    · show (4096 * x.1.val + x.2.val) / 4096 = x.1.val; omega
    · show (4096 * x.1.val + x.2.val) % 4096 = x.2.val; omega
  right_inv p := by
    refine Fin.ext ?_
    show 4096 * (p.val / 4096) + p.val % 4096 = p.val; omega

/-- 64 tiles of 4096 pixels are the 262144 pixels of a row. -/
theorem sum_tiles (f : ℕ → EReal) :
    ∑ k ∈ Finset.range 64, ∑ q : Fin 4096, f (4096 * k + q.val) = ∑ p : Fin 262144, f p.val := by
  rw [Finset.sum_range, ← Equiv.sum_comp tileEquiv (fun p : Fin 262144 => f p.val), Fintype.sum_prod_type]
  rfl

/-- After the last tile of a row block the running sum of the tiles' counts is the row's count. -/
theorem block_total (c : Dev nD) (t : Fin cfg0.N) (h63 : t.val % 64 = 63) (n h l : Fin 16)
    (R : Fin 192) (hR : R.val = 16 * (t.val / 64) + n.val) :
    ∑ k ∈ Finset.range (t.val % 64 + 1), tileCount m c (t.val / 64 * 64 + k) n h l
      = rowCount (V m c main_v2) R (16 * h.val + l.val) := by
  have hN : cfg0.N = 768 := N_0
  have ht := t.isLt
  rw [h63]
  unfold rowCount
  have key := sum_tiles (fun p => if hp : p < 262144 then
      (if Cert.HistSpec.bin (V m c main_v2 (ix2 R (⟨p, hp⟩ : Fin 262144))) = BitVec.ofNat 32 (16 * h.val + l.val) then (1 : EReal) else 0)
    else 0)
  refine ((Finset.sum_congr rfl fun k hk => ?_).trans key).trans (Finset.sum_congr rfl fun p _ => ?_)
  · have hk' : k < 64 := Finset.mem_range.mp hk
    have hp : t.val / 64 * 64 + k < cfg0.N := by omega
    rw [tileCount, dif_pos hp]
    refine Finset.sum_congr rfl fun q _ => ?_
    have hq := q.isLt
    have hlt : 4096 * k + q.val < 262144 := by omega
    rw [dif_pos hlt]
    rw [tile_apply m c ⟨t.val / 64 * 64 + k, hp⟩ n q R ⟨4096 * k + q.val, hlt⟩
      (by show R.val = 16 * ((t.val / 64 * 64 + k) / 64) + n.val; omega)
      (by show 4096 * k + q.val = 4096 * ((t.val / 64 * 64 + k) % 64) + q.val; omega)]
  · rw [dif_pos p.isLt]

/-- An entry of the output block the last tile of a row block leaves. -/
theorem flushed_entry' (c : Dev nD) (t : Fin cfg0.N) (h63 : t.val % 64 = 63) (n h l : Fin 16)
    (R : Fin 192) (hR : R.val = 16 * (t.val / 64) + n.val) :
    outBlock (F := Ideal) (outsAt0 m c t.val t.isLt).2 (ix2 n (dI h l))
      = rowHist (V m c main_v2) (ix2 R (dI h l)) := by
  rw [outBlock_apply, acc_inv m c t.val t.isLt n h l, block_total m c t h63 n h l R hR]
  rfl

/-- The same at any index of the block, against the block's place in the array. -/
theorem flushed_entry (c : Dev nD) (t : Fin cfg0.N) (h63 : t.val % 64 = 63) (j : S16x256.Idx) (i : S192x256.Idx)
    (h0 : (i 0).val = 16 * (t.val / 64) + (j 0).val) (h1 : (i 1).val = (j 1).val) :
    outBlock (F := Ideal) (outsAt0 m c t.val t.isLt).2 j = rowHist (V m c main_v2) i := by
  have hj1 : (j 1).val < 256 := (j 1).isLt
  have e := flushed_entry' m c t h63 (j 0) (⟨(j 1).val / 16, by omega⟩ : Fin 16) (⟨(j 1).val % 16, by omega⟩ : Fin 16) (i 0) h0
  have ej : j = ix2 (j 0) (dI (⟨(j 1).val / 16, by omega⟩ : Fin 16) (⟨(j 1).val % 16, by omega⟩ : Fin 16)) :=
    Cert.LibPlainDot.ext2 _ _ rfl (by show (j 1).val = 16 * ((j 1).val / 16) + (j 1).val % 16; omega)
  have ei : i = ix2 (i 0) (dI (⟨(j 1).val / 16, by omega⟩ : Fin 16) (⟨(j 1).val % 16, by omega⟩ : Fin 16)) :=
    Cert.LibPlainDot.ext2 _ _ rfl (by show (i 1).val = 16 * ((j 1).val / 16) + (j 1).val % 16; omega)
  exact (congrArg (outBlock (F := Ideal) (outsAt0 m c t.val t.isLt).2) ej).trans (e.trans (congrArg (rowHist (V m c main_v2)) ei.symm))

/-- What a flushing point writes back is its block of `rowHist X`. -/
theorem flushed_eq (c : Dev nD) (t : Fin cfg0.N) (hf : (cfg0.win 1).flush t = true) :
    (dats m 0 c).flushed 1 t = ((cfg0.win 1).blk t).view.read (Elt Ideal) (rowHist (V m c main_v2)) := by
  have h63 : t.val % 64 = 63 := (flush0_1 t).mp hf
  have h0 : ¬t.val % 64 = 0 := by omega
  obtain ⟨-, -, e2, e3⟩ := idx_facts t
  show (cfg0.win 1).cut (grid0.coords t) ((dats m 0 c).after 1 t) = _
  rw [after0_1, outAt_C m c t h0 h63]
  funext j
  show outBlock (F := Ideal) (outsAt0 m c t.val t.isLt).2 j = rowHist (V m c main_v2) (((cfg0.win 1).blk t).view.emb j)
  refine flushed_entry m c t h63 j _ ?_ ?_
  · show win0_1.index t 0 * 16 + 1 * (j 0).val = 16 * (t.val / 64) + (j 0).val
    rw [e2]; omega
  · show win0_1.index t 1 * 256 + 1 * (j 1).val = (j 1).val
    rw [e3]; omega

/-- Every index of the output array is in the block of the last tile of its row block. -/
theorem cover (i : S192x256.Idx) :
    ∃ t : Fin cfg0.N, (cfg0.win 1).flush t = true ∧ i ∈ ((cfg0.win 1).blk t).view.set := by
  have hN : cfg0.N = 768 := N_0
  have hi0 : (i 0).val < 192 := (i 0).isLt
  have hi1 : (i 1).val < 256 := (i 1).isLt
  have ht : 64 * ((i 0).val / 16) + 63 < cfg0.N := by omega
  obtain ⟨-, -, e2, e3⟩ := idx_facts ⟨64 * ((i 0).val / 16) + 63, ht⟩
  have e2' : win0_1.index ⟨64 * ((i 0).val / 16) + 63, ht⟩ (0 : Fin 2) = (i 0).val / 16 := by
    rw [e2]; show (64 * ((i 0).val / 16) + 63) / 64 = (i 0).val / 16; omega
  refine ⟨⟨64 * ((i 0).val / 16) + 63, ht⟩, (flush0_1 _).mpr (by show (64 * ((i 0).val / 16) + 63) % 64 = 63; omega), ?_⟩
  show i ∈ ((View.whole main_v3).slice (win0_1.rect ⟨64 * ((i 0).val / 16) + 63, ht⟩)).set
  rw [View.set_slice_whole, Rect.mem_set_unit]
  intro a
  match a with
  | ⟨0, _⟩ =>
    show win0_1.index ⟨64 * ((i 0).val / 16) + 63, ht⟩ 0 * 16 ≤ (i 0).val
      ∧ (i 0).val < win0_1.index ⟨64 * ((i 0).val / 16) + 63, ht⟩ 0 * 16 + 16
    rw [e2']; omega
  | ⟨1, _⟩ =>
    show win0_1.index ⟨64 * ((i 0).val / 16) + 63, ht⟩ 1 * 256 ≤ (i 1).val
      ∧ (i 1).val < win0_1.index ⟨64 * ((i 0).val / 16) + 63, ht⟩ 1 * 256 + 256
    rw [e3]; omega

/-- The output array after the run. -/
theorem final (c : Dev nD) : (dats m 0 c).arrAt 1 cfg0.N = rowHist (V m c main_v2) :=
  (dats m 0 c).arrAt_eq_of_cover 1 (rowHist (V m c main_v2)) (flushed_eq m c) cover

end Cert.KernelIdeal.HistValue

end
-- ==== Proof.HistTail.lean ====
/-
  The loss both programs end with: from the normalized histograms of the two batches (shape [32, 3, 256]), the mean
  over the 32 images per (channel, bin), the absolute difference of the two means, and the mean of that over the
  3 · 256 entries — each mean a sum divided by the count, as the host computes it.
-/
import Idealize.ShloMosaic.PureOps.Ideal
import Idealize.ShloMosaic.PureOps.Contract
import Idealize.ShloMosaic.Lib.ValueIdx

noncomputable section

namespace Cert.HistSpec

open Idealize.ShloMosaic

/-- The shape of a per-(channel, bin) table. -/
abbrev STab : Shape := ⟨2, ![3, 256]⟩
/-- The scalar shape. -/
abbrev S0 : Shape := ⟨0, ![]⟩
/-- The shape of a batch of per-slice histograms (as in the specification of the histogram). -/
abbrev SH : Shape := ⟨3, ![32, 3, 256]⟩

/-- The mean over the batch of a table of histograms: the host's sum over axis 0 from zero, divided by 32. -/
def batchMean (hA : SH.ReducesTo [0] STab) (hu : 0 < S0.numel) (hb : S0.BroadcastsInDim STab (![] : Fin 0 → Fin STab.rank))
    (H : SH.Idx → EReal) : STab.Idx → EReal :=
  Host.divf (F := Ideal) (φ := .f32)
    (Host.reduceAdd (F := Ideal) (φ := .f32) H (constant (F := Ideal) S0 .f32 0x00000000#32) hA hu)
    (broadcastInDim STab ![] hb (constant (F := Ideal) S0 .f32 0x42000000#32))

/-- The loss of two tables of histograms. -/
def loss (hA : SH.ReducesTo [0] STab) (hu : 0 < S0.numel) (hb : S0.BroadcastsInDim STab (![] : Fin 0 → Fin STab.rank))
    (hB : STab.ReducesTo [0, 1] S0) (Hf Hr : SH.Idx → EReal) : S0.Idx → EReal :=
  Host.divf (F := Ideal) (φ := .f32)
    (Host.reduceAdd (F := Ideal) (φ := .f32)
      (Host.absf (F := Ideal) (φ := .f32) (subf (F := Ideal) (φ := .f32) (batchMean hA hu hb Hf) (batchMean hA hu hb Hr)))
      (constant (F := Ideal) S0 .f32 0x00000000#32) hB hu)
    (constant (F := Ideal) S0 .f32 0x44400000#32)

end Cert.HistSpec

end
-- ==== Proof.KHost.lean ====
/-
  The host operations around the kernel.

  Before the kernel the two image batches are flattened to [96, 262144] (slice (b, c) is row 3·b + c, pixel (h, w) is
  column 512·h + w) and laid one above the other: row R < 96 of the operand array is slice R of the first batch, row
  96 + R slice R of the second. After the kernel the output [192, 256] is cut back into its two halves, each reshaped
  to [32, 3, 256]: these are the specification's normalized histograms of the two batches. The loss is then computed
  from them.
-/
import proofs.«177877_j40140764348889_2_alg».proof.Proof.KArr
import proofs.«177877_j40140764348889_2_alg».proof.Proof.HistTail
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.HistValue

open Cert.KernelIdeal Cert.KernelIdeal.Gen

open Idealize.ShloMosaic.ValueIdx Idealize.ShloMosaic.StableHlo

variable (m : (ℓ : Loc nD τ sig) → Buf (Elt Ideal) ℓ) (ρ : Dev nD → PrngReg)

/-- The operand array as the kernel finds it: the two flattened batches, one above the other. -/
theorem X_eq (c : Dev nD) : (V m c main_v2 : S192x262144.Idx → EReal)
    = concatenate S192x262144 0
        [⟨S96x262144, shapeCast S96x262144 (m ((c.tc : Thread nD τ).loc main_arg0)) shapeCasts_S32x3x512x512_S96x262144⟩,
         ⟨S96x262144, shapeCast S96x262144 (m ((c.tc : Thread nD τ).loc main_arg1)) shapeCasts_S32x3x512x512_S96x262144⟩]
        concatenates_S96x262144_S96x262144_S192x262144_d0 := by
  show StableHlo.after hostOps0 (fun b => m (c, b)) (Proc.devRef .tc main_v2) = _
  after_results
  rfl

/-- A flattened batch at (3·b + ch, p) is pixel `p` of slice (b, ch). -/
theorem flat_apply (A : S32x3x512x512.Idx → EReal) (b : Fin 32) (ch : Fin 3) (p : Fin 262144) (R : Fin 96)
    (hR : R.val = 3 * b.val + ch.val) :
    shapeCast S96x262144 A shapeCasts_S32x3x512x512_S96x262144 (ix2 R p) = Cert.HistSpec.pix A b ch p := by
  have hp := p.isLt
  have hb := b.isLt
  have hc := ch.isLt
  rw [shapeCast_apply _ _ _ (ix4 b ch (⟨p.val / 512, by omega⟩ : Fin 512) (⟨p.val % 512, by omega⟩ : Fin 512)) (by
    rw [Shape.rowMajor_val_four, Shape.rowMajor_val_two]
    show ((b.val * 3 + ch.val) * 512 + p.val / 512) * 512 + p.val % 512 = R.val * 262144 + p.val
    rw [hR]; omega)]
  rfl

/-- Rows 0 … 95 of the operand array are the slices of the first batch. -/
theorem X_fake (c : Dev nD) (b : Fin 32) (ch : Fin 3) (p : Fin 262144) (R : Fin 192) (hR : R.val = 3 * b.val + ch.val) :
    V m c main_v2 (ix2 R p) = Cert.HistSpec.pix (m ((c.tc : Thread nD τ).loc main_arg0)) b ch p := by
  have hb := b.isLt
  have hc := ch.isLt
  rw [X_eq, concatenate_pair_apply_left (t := S192x262144) (s₁ := S96x262144) (s₂ := S96x262144) (0 : Fin 2) _ _ _ (ix2 R p)
    (rfl : S96x262144.rank = S192x262144.rank) (ix2 (⟨R.val, by omega⟩ : Fin 96) p)
    (fun a => match a with | ⟨0, _⟩ => rfl | ⟨1, _⟩ => rfl)]
  exact flat_apply _ b ch p _ hR

/-- Rows 96 … 191 are the slices of the second batch. -/
theorem X_real (c : Dev nD) (b : Fin 32) (ch : Fin 3) (p : Fin 262144) (R : Fin 192) (hR : R.val = 96 + (3 * b.val + ch.val)) :
    V m c main_v2 (ix2 R p) = Cert.HistSpec.pix (m ((c.tc : Thread nD τ).loc main_arg1)) b ch p := by
  have hb := b.isLt
  have hc := ch.isLt
  rw [X_eq, concatenate_pair_apply_right (t := S192x262144) (s₁ := S96x262144) (s₂ := S96x262144) (0 : Fin 2) _ _ _ (ix2 R p)
    (rfl : S96x262144.rank = S192x262144.rank) (rfl : S96x262144.rank = S192x262144.rank) (ix2 (⟨R.val - 96, by omega⟩ : Fin 96) p)
    (fun a ha => match a with | ⟨0, _⟩ => absurd rfl ha | ⟨1, _⟩ => rfl)
    (by show R.val - 96 + 96 = R.val; omega)]
  exact flat_apply _ b ch p _ (by show R.val - 96 = 3 * b.val + ch.val; omega)

/-- A row's normalized histogram, for a row that is slice (b, ch) of a batch `A`. -/
theorem rowHist_slice (X : S192x262144.Idx → EReal) (A : S32x3x512x512.Idx → EReal) (j : S32x3x256.Idx) (i : S192x256.Idx)
    (hX : ∀ p : Fin 262144, X (ix2 (i 0) p) = Cert.HistSpec.pix A (j 0) (j 1) p) (h1 : (i 1).val = (j 2).val) :
    rowHist X i = Cert.HistSpec.histOf A j := by
  unfold rowHist rowCount Cert.HistSpec.histOf Cert.HistSpec.count
  rw [h1]
  refine congrArg (· * Ideal.ofBits .f32 0x36800000#32) (Finset.sum_congr rfl fun p _ => ?_)
  rw [hX p]

/-- The first half of the output, reshaped: the first batch's histograms. -/
theorem half_fake (c : Dev nD) :
    shapeCast S32x3x256 (extractStridedSlice S96x256 ![0, 0] (rowHist (V m c main_v2)) slices_S192x256_S96x256_0_0)
      shapeCasts_S96x256_S32x3x256 = Cert.HistSpec.histOf (m ((c.tc : Thread nD τ).loc main_arg0)) := by
  funext j
  have h0 : (j 0).val < 32 := (j 0).isLt
  have h1 : (j 1).val < 3 := (j 1).isLt
  have h2 : (j 2).val < 256 := (j 2).isLt
  rw [shapeCast_apply _ _ j (ix2 (⟨3 * (j 0).val + (j 1).val, by omega⟩ : Fin 96) (⟨(j 2).val, h2⟩ : Fin 256)) (by
      rw [Shape.rowMajor_val_two, Shape.rowMajor_val_three]
      show (3 * (j 0).val + (j 1).val) * 256 + (j 2).val = ((j 0).val * 3 + (j 1).val) * 256 + (j 2).val
      omega),
    extractStridedSlice_apply _ _ _ _ (ix2 (⟨3 * (j 0).val + (j 1).val, by omega⟩ : Fin 192) (⟨(j 2).val, h2⟩ : Fin 256))
      (fun a => match a with
        | ⟨0, _⟩ => by show 3 * (j 0).val + (j 1).val = 0 + (3 * (j 0).val + (j 1).val); omega
        | ⟨1, _⟩ => by show (j 2).val = 0 + (j 2).val; omega)]
  exact rowHist_slice _ _ j _ (fun p => X_fake m c (j 0) (j 1) p _ rfl) rfl

/-- The second half of the output, reshaped: the second batch's histograms. -/
theorem half_real (c : Dev nD) :
    shapeCast S32x3x256 (extractStridedSlice S96x256 ![96, 0] (rowHist (V m c main_v2)) slices_S192x256_S96x256_96_0)
      shapeCasts_S96x256_S32x3x256 = Cert.HistSpec.histOf (m ((c.tc : Thread nD τ).loc main_arg1)) := by
  funext j
  have h0 : (j 0).val < 32 := (j 0).isLt
  have h1 : (j 1).val < 3 := (j 1).isLt
  have h2 : (j 2).val < 256 := (j 2).isLt
  rw [shapeCast_apply _ _ j (ix2 (⟨3 * (j 0).val + (j 1).val, by omega⟩ : Fin 96) (⟨(j 2).val, h2⟩ : Fin 256)) (by
      rw [Shape.rowMajor_val_two, Shape.rowMajor_val_three]
      show (3 * (j 0).val + (j 1).val) * 256 + (j 2).val = ((j 0).val * 3 + (j 1).val) * 256 + (j 2).val
      omega),
    extractStridedSlice_apply _ _ _ _ (ix2 (⟨96 + (3 * (j 0).val + (j 1).val), by omega⟩ : Fin 192) (⟨(j 2).val, h2⟩ : Fin 256))
      (fun a => match a with
        | ⟨0, _⟩ => by show 96 + (3 * (j 0).val + (j 1).val) = 96 + (3 * (j 0).val + (j 1).val); rfl
        | ⟨1, _⟩ => by show (j 2).val = 0 + (j 2).val; omega)]
  exact rowHist_slice _ _ j _ (fun p => X_real m c (j 0) (j 1) p _ rfl) rfl

/-- The result the host tail computes: the loss of the two batches' histograms. -/
theorem tail_eq (c : Dev nD) :
    (Pipeline.afterTail₀ cfgs (dats m) 0 (V0 m) [hostOps1] c main_v17 : S_.Idx → EReal)
      = Cert.HistSpec.loss reducesTo_S32x3x256_S3x256_d0 h_S_ bcast_S_S3x256 reducesTo_S3x256_S_d0_1
          (Cert.HistSpec.histOf (m ((c.tc : Thread nD τ).loc main_arg0)))
          (Cert.HistSpec.histOf (m ((c.tc : Thread nD τ).loc main_arg1))) := by
  rw [← half_fake m c, ← half_real m c]
  unfold Pipeline.afterTail₀
  show StableHlo.after hostOps1 _ (Proc.devRef .tc main_v17) = _
  after_results
  rw [show Pipeline.withArrays (cfgs 0).spec c (V0 m c) (fun w => (dats m 0 c).arrAt w (cfgs 0).N) (Proc.tc.devRef main_v3)
      = rowHist (V m c main_v2) from (Pipeline.withArrays_arr spec0 launch0.win.arr_inj c _ _ 1).trans (final m c)]
  rfl

/-- The kernel's run, read: the result is the loss of the two batches' histograms; the arguments are unchanged. -/
theorem run : θ_run defs (onTc (τ := τ) (main (F := Ideal))) ⟨m, fun _ => 0, ρ⟩ fun r => ∀ c : Dev nD,
      r.2.mem ((c.tc : Thread nD τ).loc main_v17)
        = Cert.HistSpec.loss reducesTo_S32x3x256_S3x256_d0 h_S_ bcast_S_S3x256 reducesTo_S3x256_S_d0_1
            (Cert.HistSpec.histOf (m ((c.tc : Thread nD τ).loc main_arg0)))
            (Cert.HistSpec.histOf (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v17 (Pipeline.mem_restRefs_of main_v17 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.HistValue

end
-- ==== Proof.RefHist.lean ====
/-
  The reference's normalized histograms are the specification's.

  The reference offsets each pixel's bin word by 256 times the pixel's slice number b·3 + c, scatters a one per pixel
  into 24576 zero segments at those words, reshapes to [32, 3, 256], and divides each slice's row by the larger of the
  row's total and a small positive word. A pixel's bin word is below 256 by the clamp, so the offset word never wraps
  and equals (b·3 + c)·256 + k exactly for the pixels of slice (b, c) in bin k: segment (b·3 + c)·256 + k receives one
  update per such pixel. Every pixel of a slice is in exactly one bin, so a row's total is 262144, the maximum is
  262144, and dividing by it is multiplying by the word of 2⁻¹⁸.
-/
import proofs.«177877_j40140764348889_2_alg».proof.Proof.Gen.ReferenceIdeal.Read
import proofs.«177877_j40140764348889_2_alg».proof.Proof.HistSpec
import Idealize.ShloMosaic.Lib.ValueIdx
import Idealize.ShloMosaic.Lib.Pipeline.Value
import Idealize.ShloMosaic.PureOps.Ideal.Laws

noncomputable section

namespace Cert.RefHist

open Cert.ReferenceIdeal Cert.ReferenceIdeal.Gen Cert.ReferenceIdeal.Read Idealize.ShloMosaic Idealize.ShloMosaic.ValueIdx
open Cert.HistSpec

/-! ## The scatter's result index

The scatter has one operand axis, which is inserted (no window), and reads its start index off column 0 of the
index array: update `j` lands on segment `i` exactly when the signed word at `[j, 0]` is `i`'s coordinate. -/

theorem start_eq (idx : IVec S25165824x1 32) (j : S25165824.Idx) (a : Fin 1) :
    scatter_S24576_S25165824x1_S25165824_n_0_0_1.start j idx a = (idx (ix2 (j 0 : Fin 25165824) (0 : Fin 1))).toInt := by
  obtain rfl : a = 0 := Subsingleton.elim _ _
  unfold ScatterDims.start
  rw [dif_pos (show (0 : Fin 1) ∈ scatter_S24576_S25165824x1_S25165824_n_0_0_1.scatterDimsToOperandDims from
    List.mem_singleton.mpr rfl)]
  have hsi : scatter_S24576_S25165824x1_S25165824_n_0_0_1.siIdx j
      ⟨List.idxOf (0 : Fin 1) scatter_S24576_S25165824x1_S25165824_n_0_0_1.scatterDimsToOperandDims,
        List.idxOf_lt_length_iff.2 (List.mem_singleton.mpr rfl)⟩ = ix2 (j 0 : Fin 25165824) (0 : Fin 1) := by
    funext b; refine Fin.ext ?_
    match b with
    | ⟨0, _⟩ => rfl
    | ⟨1, _⟩ => rfl
  rw [hsi]
  rfl

theorem window_eq (j : S25165824.Idx) (a : Fin 1) :
    scatter_S24576_S25165824x1_S25165824_n_0_0_1.window j a = 0 := by
  obtain rfl : a = 0 := Subsingleton.elim _ _
  rfl

theorem resultIdx_iff (idx : IVec S25165824x1 32) (j : S25165824.Idx) (i : S24576.Idx) :
    scatter_S24576_S25165824x1_S25165824_n_0_0_1.resultIdx? j idx = some i ↔
      (idx (ix2 (j 0 : Fin 25165824) (0 : Fin 1))).toInt = ((i 0).val : Int) := by
  have hi : (i 0).val < 24576 := (i 0).isLt
  unfold ScatterDims.resultIdx?
  constructor
  · intro h
    split at h
    · rename_i hc
      have h0 := congrArg Fin.val (congrFun (Option.some.inj h) 0)
      have hc0 := hc 0
      simp only [start_eq, window_eq] at h0 hc0
      simp only [Nat.cast_zero, add_zero] at h0 hc0
      omega
    · cases h
  · intro h
    have hc : ∀ a, 0 ≤ scatter_S24576_S25165824x1_S25165824_n_0_0_1.start j idx a +
          (scatter_S24576_S25165824x1_S25165824_n_0_0_1.window j a : Int) ∧
        scatter_S24576_S25165824x1_S25165824_n_0_0_1.start j idx a +
          (scatter_S24576_S25165824x1_S25165824_n_0_0_1.window j a : Int) < (S24576.size a : Int) := by
      intro a
      obtain rfl : a = 0 := Subsingleton.elim _ _
      rw [start_eq, window_eq, h]
      show (0 : Int) ≤ ((i 0).val : Int) + ((0 : Nat) : Int) ∧
        ((i 0).val : Int) + ((0 : Nat) : Int) < ((24576 : Nat) : Int)
      omega
    rw [dif_pos hc]
    congr 1
    funext a
    obtain rfl : a = 0 := Subsingleton.elim _ _
    refine Fin.ext ?_
    show (scatter_S24576_S25165824x1_S25165824_n_0_0_1.start j idx 0 +
      (scatter_S24576_S25165824x1_S25165824_n_0_0_1.window j 0 : Int)).toNat = (i 0).val
    rw [start_eq, window_eq, h]
    omega

/-! ## Words: the clamp, and a bin word offset by 256 times a slice number -/

/-- The clamp to [0, 255] (signed comparisons) leaves a word whose unsigned value is below 256. -/
theorem clamp_lt (y : BitVec 32) : (IntOp.minsi 255#32 (IntOp.maxsi 0#32 y)).toNat < 256 := by
  unfold IntOp.minsi IntOp.maxsi
  by_cases h1 : y.slt 0#32 = true
  · rw [if_pos h1, if_neg (by decide)]; decide
  · rw [if_neg h1]
    by_cases h2 : (255#32 : BitVec 32).slt y = true
    · rw [if_pos h2]; decide
    · rw [if_neg h2]
      rw [BitVec.slt, decide_eq_true_eq] at h1 h2
      have h3 := BitVec.toInt_eq_toNat_cond y
      have h4 : (255#32 : BitVec 32).toInt = 255 := by decide
      have h5 : (0#32 : BitVec 32).toInt = 0 := by decide
      rw [h4] at h2
      rw [h5] at h1
      split at h3 <;> omega

/-- Every bin word is below 256. -/
theorem bin_lt (x : EReal) : (bin x).toNat < 256 := clamp_lt _

/-- A word below 256 plus 256 times a slice number below 96 does not wrap: its unsigned value is the sum. -/
theorem word_toNat (w : BitVec 32) (hw : w.toNat < 256) (s : Nat) (hs : s < 96) :
    (IntOp.addi w (IntOp.muli (BitVec.ofNat 32 s) 256#32)).toNat = w.toNat + s * 256 := by
  unfold IntOp.addi IntOp.muli
  rw [BitVec.toNat_add, BitVec.toNat_mul, BitVec.toNat_ofNat]
  have h : (256#32 : BitVec 32).toNat = 256 := rfl
  rw [h]
  omega

/-- So its signed value is `t · 256 + k` (t < 96, k < 256) exactly when the slice number is `t` and the word is
    `k`'s. -/
theorem word_toInt_iff (w : BitVec 32) (hw : w.toNat < 256) (s t k : Nat) (hs : s < 96) (ht : t < 96) (hk : k < 256) :
    (IntOp.addi w (IntOp.muli (BitVec.ofNat 32 s) 256#32)).toInt = ((t * 256 + k : Nat) : Int) ↔
      s = t ∧ w = BitVec.ofNat 32 k := by
  have h1 := word_toNat w hw s hs
  have h2 : (IntOp.addi w (IntOp.muli (BitVec.ofNat 32 s) 256#32)).toInt = ((w.toNat + s * 256 : Nat) : Int) := by
    rw [BitVec.toInt_eq_toNat_cond, h1, if_pos (by omega)]
  rw [h2]
  constructor
  · intro h
    have h' : w.toNat + s * 256 = t * 256 + k := by exact_mod_cast h
    refine ⟨by omega, ?_⟩
    apply BitVec.eq_of_toNat_eq
    rw [BitVec.toNat_ofNat]; omega
  · rintro ⟨rfl, rfl⟩
    have h3 : (BitVec.ofNat 32 k).toNat = k := by rw [BitVec.toNat_ofNat]; omega
    rw [h3]; omega

/-! ## The three float words -/

theorem ofBits_one : Ideal.ofBits .f32 0x3F800000#32 = 1 := by
  simp [Ideal.ofBits, Ideal.ieee, -EReal.coe_mul]; norm_num

theorem ofBits_inv : Ideal.ofBits .f32 0x36800000#32 = ((1 / 262144 : ℝ) : EReal) := by
  simp [Ideal.ofBits, Ideal.ieee, -EReal.coe_mul]; norm_num

theorem ofBits_tiny_le : Ideal.ofBits .f32 0x2B8CBCCC#32 ≤ ((262144 : ℝ) : EReal) := by
  simp [Ideal.ofBits, Ideal.ieee, -EReal.coe_mul]; norm_num

/-! ## Flat positions -/

/-- The image index of flat position `j` of the batch. -/
abbrev pos4 (j : Fin 25165824) : SImg.Idx :=
  ix4 (⟨j.val / 786432, by omega⟩ : Fin 32) (⟨j.val / 262144 % 3, by omega⟩ : Fin 3)
    (⟨j.val / 512 % 512, by omega⟩ : Fin 512) (⟨j.val % 512, by omega⟩ : Fin 512)

theorem ix4_congr {n0 n1 n2 n3 : Nat} {a a' : Fin n0} {b b' : Fin n1} {c c' : Fin n2} {d d' : Fin n3}
    (h0 : a.val = a'.val) (h1 : b.val = b'.val) (h2 : c.val = c'.val) (h3 : d.val = d'.val) :
    ix4 a b c d = ix4 a' b' c' d' := by
  obtain rfl := Fin.ext h0
  obtain rfl := Fin.ext h1
  obtain rfl := Fin.ext h2
  obtain rfl := Fin.ext h3
  rfl

/-- Pixel `j mod 262144` of slice (b, c) is the batch at flat position `j`, when `j` lies in that slice. -/
theorem pix_eq (A : SImg.Idx → EReal) (b : Fin 32) (c : Fin 3) (j : Fin 25165824)
    (h : j.val / 262144 = b.val * 3 + c.val) :
    pix A b c (⟨j.val % 262144, Nat.mod_lt _ (by norm_num)⟩ : Fin 262144) = A (pos4 j) := by
  unfold pix
  congr 1
  exact ix4_congr (by show b.val = j.val / 786432; omega) (by show c.val = j.val / 262144 % 3; omega)
    (by show j.val % 262144 / 512 = j.val / 512 % 512; omega) (by show j.val % 262144 % 512 = j.val % 512; omega)

/-! ## Counting -/

/-- Which updates land on segment `(b·3 + c)·256 + k`: those of slice (b, c) whose pixel is in bin `k`. -/
theorem lands_iff (A : SImg.Idx → EReal) (idx : IVec S25165824x1 32)
    (hidx : ∀ j : Fin 25165824, idx (ix2 j (0 : Fin 1)) =
      IntOp.addi (bin (A (pos4 j))) (IntOp.muli (BitVec.ofNat 32 (j.val / 262144)) 256#32))
    (b : Fin 32) (c : Fin 3) (k : Fin 256) (i : S24576.Idx) (hi : (i 0).val = (b.val * 3 + c.val) * 256 + k.val)
    (j : S25165824.Idx) :
    scatter_S24576_S25165824x1_S25165824_n_0_0_1.resultIdx? j idx = some i ↔
      (j 0).val / 262144 = b.val * 3 + c.val ∧ bin (A (pos4 (j 0))) = BitVec.ofNat 32 k.val := by
  have hj : (j 0).val < 25165824 := (j 0).isLt
  have h := hidx (j 0)
  have key := word_toInt_iff (bin (A (pos4 (j 0)))) (bin_lt _) ((j 0).val / 262144) (b.val * 3 + c.val) k.val
    (by omega) (by omega) k.isLt
  rw [← h] at key
  rw [resultIdx_iff, hi]
  exact key

/-- The scatter of ones into zeros at those index words counts, at segment `(b·3 + c)·256 + k`, the pixels of slice
    (b, c) in bin `k`: the updates landing there are the slice's positions `(b·3 + c)·262144 + p` with pixel `p` in
    the bin. -/
theorem count_of_words (A : SImg.Idx → EReal) (idx : IVec S25165824x1 32)
    (hidx : ∀ j : Fin 25165824, idx (ix2 j (0 : Fin 1)) =
      IntOp.addi (bin (A (pos4 j))) (IntOp.muli (BitVec.ofNat 32 (j.val / 262144)) 256#32))
    (z : S24576.Idx → EReal) (hz : ∀ i, z i = 0) (u : S25165824.Idx → EReal) (hu : ∀ j, u j = 1)
    (b : Fin 32) (c : Fin 3) (k : Fin 256) (i : S24576.Idx) (hi : (i 0).val = (b.val * 3 + c.val) * 256 + k.val) :
    Host.scatterAdd (F := Ideal) (φ := .f32) scatter_S24576_S25165824x1_S25165824_n_0_0_1 z idx u i =
      HistSpec.count A b c (BitVec.ofNat 32 k.val) := by
  show z i + ∑ j ∈ Finset.univ.filter
    (fun j => scatter_S24576_S25165824x1_S25165824_n_0_0_1.resultIdx? j idx = some i), u j = _
  rw [hz, zero_add]
  unfold HistSpec.count
  rw [← Finset.sum_filter]
  refine Finset.sum_nbij' (fun j => (⟨(j 0).val % 262144, Nat.mod_lt _ (by norm_num)⟩ : Fin 262144))
    (fun p => (ix1 (⟨(b.val * 3 + c.val) * 262144 + p.val, by omega⟩ : Fin 25165824) : S25165824.Idx)) ?_ ?_ ?_ ?_ ?_
  · intro j hj
    rw [Finset.mem_filter] at hj ⊢
    obtain ⟨hs, hb⟩ := (lands_iff A idx hidx b c k i hi j).1 hj.2
    refine ⟨Finset.mem_univ _, ?_⟩
    rw [pix_eq A b c (j 0) hs]
    exact hb
  · intro p hp
    rw [Finset.mem_filter] at hp ⊢
    refine ⟨Finset.mem_univ _, ?_⟩
    have hpv : p.val < 262144 := p.isLt
    have hs : ((⟨(b.val * 3 + c.val) * 262144 + p.val, by omega⟩ : Fin 25165824)).val / 262144 = b.val * 3 + c.val := by
      show ((b.val * 3 + c.val) * 262144 + p.val) / 262144 = b.val * 3 + c.val
      omega
    refine (lands_iff A idx hidx b c k i hi _).2 ⟨hs, ?_⟩
    rw [← pix_eq A b c _ hs]
    have hp2 := hp.2
    have hpe : (⟨((⟨(b.val * 3 + c.val) * 262144 + p.val, by omega⟩ : Fin 25165824)).val % 262144,
        Nat.mod_lt _ (by norm_num)⟩ : Fin 262144) = p := by
      refine Fin.ext ?_
      show ((b.val * 3 + c.val) * 262144 + p.val) % 262144 = p.val
      omega
    rw [hpe]
    exact hp2
  · intro j hj
    rw [Finset.mem_filter] at hj
    obtain ⟨hs, _⟩ := (lands_iff A idx hidx b c k i hi j).1 hj.2
    have hj0 : (j 0).val < 25165824 := (j 0).isLt
    funext a
    obtain rfl : a = 0 := Subsingleton.elim _ _
    refine Fin.ext ?_
    show (b.val * 3 + c.val) * 262144 + (j 0).val % 262144 = (j 0).val
    omega
  · intro p _
    have hpv : p.val < 262144 := p.isLt
    refine Fin.ext ?_
    show ((b.val * 3 + c.val) * 262144 + p.val) % 262144 = p.val
    omega
  · intro j _
    exact hu j

/-! ## The bins of a slice, and the normalization -/

/-- Each pixel of a slice is in exactly one of the 256 bins, so the bins' counts add up to the slice's 262144
    pixels. -/
theorem sum_counts (A : SImg.Idx → EReal) (b : Fin 32) (c : Fin 3) :
    ∑ k : Fin 256, HistSpec.count A b c (BitVec.ofNat 32 k.val) = ((262144 : ℝ) : EReal) := by
  unfold HistSpec.count
  rw [Finset.sum_comm]
  have hin : ∀ p : Fin 262144,
      ∑ k : Fin 256, (if bin (pix A b c p) = BitVec.ofNat 32 k.val then (1 : EReal) else 0) = 1 := by
    intro p
    have hlt := bin_lt (pix A b c p)
    rw [Finset.sum_eq_single (⟨(bin (pix A b c p)).toNat, hlt⟩ : Fin 256)]
    · rw [if_pos]
      apply BitVec.eq_of_toNat_eq
      rw [BitVec.toNat_ofNat]
      show (bin (pix A b c p)).toNat = (bin (pix A b c p)).toNat % 2 ^ 32
      omega
    · intro k _ hk
      rw [if_neg]
      intro h
      apply hk
      refine Fin.ext ?_
      show k.val = (bin (pix A b c p)).toNat
      have hk2 : k.val < 256 := k.isLt
      rw [h, BitVec.toNat_ofNat]
      omega
    · intro h
      exact absurd (Finset.mem_univ _) h
  rw [Finset.sum_congr rfl (fun p _ => hin p), Finset.sum_const, Finset.card_univ, Fintype.card_fin, nsmul_one,
    ← EReal.coe_natCast]
  norm_num

/-- With the counts adding up to 262144, dividing one by the larger of that total and the small word is multiplying
    it by the word of 2⁻¹⁸. -/
theorem norm_eq (cnt : Fin 256 → EReal) (hsum : ∑ k, cnt k = ((262144 : ℝ) : EReal)) (x : EReal) :
    Ideal.div x (max (Ideal.ofBits .f32 0x00000000#32 + ∑ k, cnt k) (Ideal.ofBits .f32 0x2B8CBCCC#32)) =
      x * Ideal.ofBits .f32 0x36800000#32 := by
  rw [hsum, Ideal.ofBits_zero_f32, zero_add, max_eq_left ofBits_tiny_le, Ideal.div_coe (by norm_num), ofBits_inv]

/-! ## The reference's stages, first batch -/

/-- The index word at flat position `j`: the pixel's bin word plus 256 times the slice number `j / 262144`. -/
theorem v13_word (x0 : (⟨S32x3x512x512, .f32⟩ : BufTy).Contents (Elt Ideal)) (j : Fin 25165824) :
    val_main_v13 (F := Ideal) x0 (ix2 j (0 : Fin 1)) =
      IntOp.addi (bin (x0 (pos4 j))) (IntOp.muli (BitVec.ofNat 32 (j.val / 262144)) 256#32) := by
  rw [val_main_v13_apply, val_main_v10_apply, val_main_v9_apply, val_main_v3_apply, val_main_call0_v4_apply,
    val_main_call0_v3_apply, val_main_c_0_apply, val_main_call0_v2_apply, val_main_call0_v1_apply,
    val_main_call0_v0_apply, val_main_c_apply, val_main_v2_apply, val_main_v1_apply, val_main_v0_apply,
    val_main_cst_apply, val_main_v8_apply, val_main_v7_apply, val_main_v6_apply, val_main_v4_apply,
    val_main_v5_apply, val_main_c_1_apply]
  have hI : idx_main_v10 (idx_main_v13 (ix2 j (0 : Fin 1))) = pos4 j := by
    funext a; refine Fin.ext ?_
    match a with
    | ⟨0, _⟩ => rfl
    | ⟨1, _⟩ => rfl
    | ⟨2, _⟩ => rfl
    | ⟨3, _⟩ => rfl
  rw [hI]
  have hn : ((idx_main_v7 (idx_main_v8 (pos4 j))) 0).val = j.val / 262144 := by
    show ((j.val / 786432 * 3 + j.val / 262144 % 3) * 1 + 0) * 1 + 0 = j.val / 262144
    omega
  rw [hn]
  rfl

theorem v12_zero (i : S24576.Idx) : val_main_v12 (F := Ideal) i = 0 := by
  rw [val_main_v12_apply, val_main_cst_3_apply]
  exact Ideal.ofBits_zero_f32

theorem v11_one (j : S25165824.Idx) : val_main_v11 (F := Ideal) j = 1 := by
  rw [val_main_v11_apply, val_main_cst_2_apply]
  exact ofBits_one

/-- The reshaped scatter result at (b, c, k) is the count of slice (b, c)'s pixels in bin `k`. -/
theorem v15_eq (x0 : (⟨S32x3x512x512, .f32⟩ : BufTy).Contents (Elt Ideal)) (i : S32x3x256.Idx) :
    val_main_v15 (F := Ideal) x0 i = HistSpec.count x0 (i 0) (i 1) (BitVec.ofNat 32 (i 2).val) := by
  rw [val_main_v15_apply]
  exact count_of_words x0 (val_main_v13 (F := Ideal) x0) (v13_word x0) (val_main_v12 (F := Ideal)) v12_zero
    (val_main_v11 (F := Ideal)) v11_one (i 0) (i 1) (i 2) (idx_main_v15 i) rfl

/-- The reference's normalized histogram of the first batch is the specification's. -/
theorem hist_fake (x0 : (⟨S32x3x512x512, .f32⟩ : BufTy).Contents (Elt Ideal)) :
    val_main_v21 (F := Ideal) x0 = HistSpec.histOf x0 := by
  funext i
  rw [val_main_v21_apply, val_main_v20_apply, val_main_v19_apply, val_main_v17_apply, val_main_v18_apply,
    val_main_cst_5_apply, val_main_v16_apply, val_main_cst_4_apply]
  simp only [Ideal.hostDivf_def, Ideal.maximumf_def, Ideal.ofBits_def, v15_eq]
  exact norm_eq (fun k => HistSpec.count x0 (i 0) (i 1) (BitVec.ofNat 32 k.val)) (sum_counts x0 (i 0) (i 1)) _

/-! ## The reference's stages, second batch -/

/-- The index word at flat position `j`: the pixel's bin word plus 256 times the slice number `j / 262144`. -/
theorem v35_word (x1 : (⟨S32x3x512x512, .f32⟩ : BufTy).Contents (Elt Ideal)) (j : Fin 25165824) :
    val_main_v35 (F := Ideal) x1 (ix2 j (0 : Fin 1)) =
      IntOp.addi (bin (x1 (pos4 j))) (IntOp.muli (BitVec.ofNat 32 (j.val / 262144)) 256#32) := by
  rw [val_main_v35_apply, val_main_v32_apply, val_main_v31_apply, val_main_v25_apply, val_main_call1_v4_apply,
    val_main_call1_v3_apply, val_main_c_8_apply, val_main_call1_v2_apply, val_main_call1_v1_apply,
    val_main_call1_v0_apply, val_main_c_7_apply, val_main_v24_apply, val_main_v23_apply, val_main_v22_apply,
    val_main_cst_6_apply, val_main_v30_apply, val_main_v29_apply, val_main_v28_apply, val_main_v26_apply,
    val_main_v27_apply, val_main_c_9_apply]
  have hI : idx_main_v32 (idx_main_v35 (ix2 j (0 : Fin 1))) = pos4 j := by
    funext a; refine Fin.ext ?_
    match a with
    | ⟨0, _⟩ => rfl
    | ⟨1, _⟩ => rfl
    | ⟨2, _⟩ => rfl
    | ⟨3, _⟩ => rfl
  rw [hI]
  have hn : ((idx_main_v29 (idx_main_v30 (pos4 j))) 0).val = j.val / 262144 := by
    show ((j.val / 786432 * 3 + j.val / 262144 % 3) * 1 + 0) * 1 + 0 = j.val / 262144
    omega
  rw [hn]
  rfl

theorem v34_zero (i : S24576.Idx) : val_main_v34 (F := Ideal) i = 0 := by
  rw [val_main_v34_apply, val_main_cst_11_apply]
  exact Ideal.ofBits_zero_f32

theorem v33_one (j : S25165824.Idx) : val_main_v33 (F := Ideal) j = 1 := by
  rw [val_main_v33_apply, val_main_cst_10_apply]
  exact ofBits_one

/-- The reshaped scatter result at (b, c, k) is the count of slice (b, c)'s pixels in bin `k`. -/
theorem v37_eq (x1 : (⟨S32x3x512x512, .f32⟩ : BufTy).Contents (Elt Ideal)) (i : S32x3x256.Idx) :
    val_main_v37 (F := Ideal) x1 i = HistSpec.count x1 (i 0) (i 1) (BitVec.ofNat 32 (i 2).val) := by
  rw [val_main_v37_apply]
  exact count_of_words x1 (val_main_v35 (F := Ideal) x1) (v35_word x1) (val_main_v34 (F := Ideal)) v34_zero
    (val_main_v33 (F := Ideal)) v33_one (i 0) (i 1) (i 2) (idx_main_v37 i) rfl

/-- The reference's normalized histogram of the second batch is the specification's. -/
theorem hist_real (x1 : (⟨S32x3x512x512, .f32⟩ : BufTy).Contents (Elt Ideal)) :
    val_main_v43 (F := Ideal) x1 = HistSpec.histOf x1 := by
  funext i
  rw [val_main_v43_apply, val_main_v42_apply, val_main_v41_apply, val_main_v39_apply, val_main_v40_apply,
    val_main_cst_13_apply, val_main_v38_apply, val_main_cst_12_apply]
  simp only [Ideal.hostDivf_def, Ideal.maximumf_def, Ideal.ofBits_def, v37_eq]
  exact norm_eq (fun k => HistSpec.count x1 (i 0) (i 1) (BitVec.ofNat 32 k.val)) (sum_counts x1 (i 0) (i 1)) _

end Cert.RefHist

end
-- ==== Proof.RefTail.lean ====
/-
  The reference's last stages are the loss of its two normalized histograms.
-/
import proofs.«177877_j40140764348889_2_alg».proof.Proof.Gen.ReferenceIdeal.Read
import proofs.«177877_j40140764348889_2_alg».proof.Proof.HistTail

noncomputable section

namespace Cert.RefHist

open Cert.ReferenceIdeal Cert.ReferenceIdeal.Gen Cert.ReferenceIdeal.Read Idealize.ShloMosaic

/-- From the two normalized histograms on, the reference computes the loss. -/
theorem loss_eq (x0 x1 : (⟨S32x3x512x512, .f32⟩ : BufTy).Contents (Elt Ideal)) :
    val_main_v53 (F := Ideal) x0 x1
      = Cert.HistSpec.loss reducesTo_S32x3x256_S3x256_d0 h_S_ bcast_S_S3x256 reducesTo_S3x256_S_d0_1
          (val_main_v21 (F := Ideal) x0) (val_main_v43 (F := Ideal) x1) := rfl

end Cert.RefHist

end
-- ==== Proof.lean ====
/-
  The two programs compute one loss.

  Each pixel value x of an image batch [32, 3, 512, 512] falls into the bin clamp(int(256·x), 0, 255). For each of the
  96 slices (image, channel) the normalized histogram is, per bin, the number of the slice's 262144 pixels in the bin
  times 2⁻¹⁸ (Proof/HistSpec.lean). The loss is the mean over (channel, bin) of the absolute difference of the two
  batches' batch-mean histograms (Proof/HistTail.lean).

  The kernel counts with two one-hot matrices per tile of 16 rows × 4096 pixels — the high and the low base-16 digit
  of the bin — whose product has, on its 16 diagonal 16×16 blocks, the per-row counts by bin; it accumulates the
  products over the 64 tiles of a row block, and after the last tile writes the diagonal blocks out as rows, scaled by
  2⁻¹⁸ (Proof/KPieces.lean, KOut.lean, KOutAt.lean, KMat.lean, KAcc.lean, KArr.lean, KHost.lean). The reference
  scatters a one per pixel into the segment numbered 256·slice + bin and divides each slice's row by the larger of its
  total — 262144, every pixel being in exactly one bin — and a small positive word (Proof/RefHist.lean,
  RefTail.lean). Both results are the loss of the specification's histograms of the two batches; nothing here needs
  the inputs finite. The ideal pass rewrote nothing, so the idealization's statement is trivial.
-/
import proofs.«177877_j40140764348889_2_alg».proof.Defs
import proofs.«177877_j40140764348889_2_alg».proof.Proof.Gen.Kernel
import proofs.«177877_j40140764348889_2_alg».proof.Proof.Gen.Kernel.Skeleton
import proofs.«177877_j40140764348889_2_alg».proof.Proof.Gen.Kernel.Launch
import proofs.«177877_j40140764348889_2_alg».proof.Proof.Gen.Kernel.Points
import proofs.«177877_j40140764348889_2_alg».proof.Proof.Gen.Kernel.Frame
import proofs.«177877_j40140764348889_2_alg».proof.Proof.Gen.KernelIdeal
import proofs.«177877_j40140764348889_2_alg».proof.Proof.Gen.KernelIdeal.Skeleton
import proofs.«177877_j40140764348889_2_alg».proof.Proof.Gen.KernelIdeal.Launch
import proofs.«177877_j40140764348889_2_alg».proof.Proof.Gen.KernelIdeal.Points
import proofs.«177877_j40140764348889_2_alg».proof.Proof.Gen.KernelIdeal.Frame
import proofs.«177877_j40140764348889_2_alg».proof.Proof.Gen.ReferenceIdeal
import proofs.«177877_j40140764348889_2_alg».proof.Proof.Gen.ReferenceIdeal.Run
import proofs.«177877_j40140764348889_2_alg».proof.Proof.Gen.ReferenceIdeal.Read
import proofs.«177877_j40140764348889_2_alg».proof.Proof.Gen.Pre_finite_inputs
import proofs.«177877_j40140764348889_2_alg».proof.Proof.KHost
import proofs.«177877_j40140764348889_2_alg».proof.Proof.RefHist
import proofs.«177877_j40140764348889_2_alg».proof.Proof.RefTail
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the loss of the specification's histograms of the two batches, read off memories that agree
    on the two batches. -/
theorem algebraic : Cert.algebraic_KernelIdeal_ReferenceIdeal := by
  intro m ρ m' ρ' _ hagree
  refine ⟨_, Cert.KernelIdeal.HistValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v53_eq, Cert.RefHist.loss_eq, Cert.RefHist.hist_fake, Cert.RefHist.hist_real,
    (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
